-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S60000x128 : Shape := ⟨2, ![60000, 128]⟩
abbrev S40000x128 : Shape := ⟨2, ![40000, 128]⟩
abbrev S128x128 : Shape := ⟨2, ![128, 128]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S60000x128 : S_.BroadcastsInDim S60000x128 (![] : Fin 0 → Fin S60000x128.rank)
  reducesTo_S60000x128_S_d0_1 : S60000x128.ReducesTo [0, 1] S_
  bcast_S_S40000x128 : S_.BroadcastsInDim S40000x128 (![] : Fin 0 → Fin S40000x128.rank)
  reducesTo_S40000x128_S_d0_1 : S40000x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128x128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : IVec S1600000 32) (main_arg1 : IVec S1600000 32) (main_arg2 : FVec F S1600000 .f32) (main_arg3 : FVec F S60000x128 .f32) (main_arg4 : FVec F S40000x128 .f32) (main_arg5 : FVec F S128x128 .f32) (main_arg6 : FVec F S128x128 .f32) (main_arg7 : FVec F S128x128 .f32) : IVec S_ 1 :=
  let main_v0 : FVec F S1600000 .f32 := Host.absf main_arg2
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S60000x128 .f32 := Host.absf main_arg3
  let main_cst_0 : FVec F S_ .f32 := constant S_ .f32 0x7F800000#32
  let main_v5 : FVec F S60000x128 .f32 := broadcastInDim S60000x128 ![] bcast_S_S60000x128 main_cst_0
  let main_v6 : IVec S60000x128 1 := cmpf .olt main_v4 main_v5
  let main_c_1 : IVec S_ 1 := constantI S_ 1 1#1
  let main_v7 : IVec S_ 1 := (fun x v => Host.reduce IntOp.andi x v reducesTo_S60000x128_S_d0_1 h_S_) main_v6 main_c_1
  let main_v8 : IVec S_ 1 := andi main_v3 main_v7
  let main_v9 : FVec F S40000x128 .f32 := Host.absf main_arg4
  let main_cst_2 : FVec F S_ .f32 := constant S_ .f32 0x7F800000#32
  let main_v10 : FVec F S40000x128 .f32 := broadcastInDim S40000x128 ![] bcast_S_S40000x128 main_cst_2
  let main_v11 : IVec S40000x128 1 := cmpf .olt main_v9 main_v10
  let main_c_3 : IVec S_ 1 := constantI S_ 1 1#1
  let main_v12 : IVec S_ 1 := (fun x v => Host.reduce IntOp.andi x v reducesTo_S40000x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_v13 main_v16
-- ==== Kernel.lean ====
abbrev S1600000 : Shape := ⟨1, ![1600000]⟩
abbrev S60000x128 : Shape := ⟨2, ![60000, 128]⟩
abbrev S40000x128 : Shape := ⟨2, ![40000, 128]⟩
abbrev S128x128 : Shape := ⟨2, ![128, 128]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S10000x128 : Shape := ⟨2, ![10000, 128]⟩
abbrev S10000 : Shape := ⟨1, ![10000]⟩
abbrev S10000x1 : Shape := ⟨2, ![10000, 1]⟩

abbrev nBuf : Space → Nat
  | .hbm => 65
  | .vmem => 27
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S60000x128, .f32⟩
  | .hbm, ⟨4, _⟩ => ⟨S40000x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S100000x128, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S1600000x128, .f32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1600000x1, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S60000x128, .f32⟩
  | .hbm, ⟨64, _⟩ => ⟨S40000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S128x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S128x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42_0 : Ref sig .tc := ⟨.hbm, 61, rfl⟩
abbrev main_v42_1 : Ref sig .tc := ⟨.hbm, 62, rfl⟩
abbrev main_v43 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S10000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  concatenates_S60000x128_S40000x128_S100000x128_d0 : Shape.Concatenates [S60000x128, S40000x128] S100000x128 0
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  reduces_S10000x128_S10000 : S10000x128.Reduces [1] S10000
  shapeCasts_S10000_S10000x1 : S10000.ShapeCasts S10000x1
  broadcasts_S10000x1_S10000x128 : S10000x1.Broadcasts S10000x128
  slices_S100000x128_S60000x128_0_0 : S100000x128.Slices ![0, 0] S60000x128
  slices_S100000x128_S40000x128_60000_0 : S100000x128.Slices ![60000, 0] S40000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x128.size a ≤ S100000x128.size a
  hwx2_4 : ∀ i : grid2.Coords, EltTy.bits .f32 = 32 ∨ (Rect.block (s := S100000x128) S10000x128.size (cc2_transform_4 i) (hinb2_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v13) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S10000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v27) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14_1) S10000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28_0) S10000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28_1) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28_1) S10000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42_0) S10000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v42_1) S10000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where
  halias0_4 : Pipeline.Aliased win0 2 4
  halias1_4 : Pipeline.Aliased win1 2 4
  halias2_4 : Pipeline.Aliased win2 2 4

variable [Facts]
-- ==== ReferenceIdeal.lean ====
abbrev S1600000 : Shape := ⟨1, ![1600000]⟩
abbrev S60000x128 : Shape := ⟨2, ![60000, 128]⟩
abbrev S40000x128 : Shape := ⟨2, ![40000, 128]⟩
abbrev S128x128 : Shape := ⟨2, ![128, 128]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S60000x128, .f32⟩
  | .hbm, ⟨4, _⟩ => ⟨S40000x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S100000x128, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S_, .f32⟩
  | .hbm, ⟨31, _⟩ => ⟨S100000, .f32⟩
  | .hbm, ⟨32, _⟩ => ⟨S100000x1, .f32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1600000x1, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000, .f32⟩
  | .hbm, ⟨63, _⟩ => ⟨S100000x1, .f32⟩
  | .hbm, ⟨64, _⟩ => ⟨S100000x1, .f32⟩
  | .hbm, ⟨65, _⟩ => ⟨S_, .f32⟩
  | .hbm, ⟨66, _⟩ => ⟨S100000x1, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S1600000x1, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x128, .f32⟩
  | .hbm, ⟨81, _⟩ => ⟨S1600000x128, .f32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000, .f32⟩
  | .hbm, ⟨94, _⟩ => ⟨S100000x1, .f32⟩
  | .hbm, ⟨95, _⟩ => ⟨S100000x1, .f32⟩
  | .hbm, ⟨96, _⟩ => ⟨S_, .f32⟩
  | .hbm, ⟨97, _⟩ => ⟨S100000x1, .f32⟩
  | .hbm, ⟨98, _⟩ => ⟨S100000x1, .f32⟩
  | .hbm, ⟨99, _⟩ => ⟨S100000x128, .f32⟩
  | .hbm, ⟨100, _⟩ => ⟨S100000x128, .f32⟩
  | .hbm, ⟨101, _⟩ => ⟨S100000x128, .f32⟩
  | .hbm, ⟨102, _⟩ => ⟨S60000x128, .f32⟩
  | .hbm, ⟨103, _⟩ => ⟨S40000x128, .f32⟩
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_cst : Ref sig .tc := ⟨.hbm, 26, rfl⟩
abbrev main_call0_v0 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call1_cst : Ref sig .tc := ⟨.hbm, 57, rfl⟩
abbrev main_call1_v0 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_call2_cst : Ref sig .tc := ⟨.hbm, 88, rfl⟩
abbrev main_call2_v0 : Ref sig .tc := ⟨.hbm, 89, rfl⟩
abbrev main_v63 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_12 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩

abbrev nD : Nat := 1
abbrev τ : Topo := Topo.v7x

variable {F : FTy → Type} [FloatOps F]

class Facts₀ : Prop where
  concatenates_S60000x128_S40000x128_S100000x128_d0 : Shape.Concatenates [S60000x128, S40000x128] S100000x128 0
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S100000x128_S60000x128_0_0 : S100000x128.Slices ![0, 0] S60000x128
  slices_S100000x128_S40000x128_60000_0 : S100000x128.Slices ![60000, 0] S40000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its two results NAMED. The program is three launches of the layer kernel among four
  stretches of host operations; the contents of every buffer at each boundary are a fold from the launch memory
  (the generated `W0 … W7`). Every weakly fair execution ends with each unscoped buffer at the last boundary's
  contents; here that is read at the two result buffers and at the eight arguments.
-/
import proofs.«167505_j4269197492538_2_alg».proof.Proof.Gen.KernelIdeal.Frame

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the two results at the last boundary's contents and the
    arguments as launched. -/
theorem run_named : θ_run defs (onTc (τ := τ) (main (F := F))) ⟨m, fun _ => 0, ρ⟩ (fun r => ∀ c : Dev nD,
      r.2.mem ((c.tc : Thread nD τ).loc main_v43) = W7 m ρ c (Proc.devRef .tc main_v43)
      ∧ r.2.mem ((c.tc : Thread nD τ).loc main_v44) = W7 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v43 (by decide)),
       h c _ (mem_uc main_v44 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Layers

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibRmsNorm.lean ====
/-
  Root-mean-square normalisation of the rows of a matrix, read one row at a time on the extended reals, over any sizes.

  A row r of N entries is scaled by s(r) = rsqrt((Σ_k r_k · r_k) / c + e), where c and e are the numbers two given 32-bit
  words encode (the row length and a small offset, as the program spells them), and then multiplied entry by entry
  by a gain row g:   rowNorm r g q = r_q · s(r) · g_q.

  The same function is computed two ways. On the vector unit: square, sum along the lanes from zero, lay the sums
  out as a column, divide, add, take the reciprocal square root, spread the column along the lanes, multiply; the
  gain row laid out as a row and spread down the sublanes. On the host: square, reduce-add over the last axis from a
  scalar zero, broadcast to a column, divide by a broadcast scalar, add a broadcast scalar, reciprocal square root,
  broadcast along the last axis, multiply; the gain broadcast to a row and then down the rows. Both, read at
  row p, are rowNorm of row p of the operand. Nothing here needs the entries to be finite: both sides apply the same
  operations to the same sums.

  Also here: the vocabulary of rows (row p of a matrix, a vector as a function of its coordinate, a matrix as a function
  of two coordinates), and a row times a matrix.
-/
import Idealize.ShloMosaic.PureOps.Ideal.Laws
import Idealize.ShloMosaic.Lib.Pipeline.Value
import Idealize.ShloMosaic.Lib.ValueIdx
import proofs.«167505_j4269197492538_2_alg».proof.Proof.LibColRowBroadcast

noncomputable section

open scoped BigOperators

namespace Cert.RmsNorm

open Idealize.ShloMosaic Idealize.ShloMosaic.ValueIdx

/-! ## Rows -/

/-- Row `p` of a matrix, as a function of the column. -/
def row {M N : ℕ} (a : (⟨2, ![M, N]⟩ : Shape).Idx → EReal) (p : Fin M) : Fin N → EReal := fun k => a (ix2 p k)

/-- A vector as a function of its coordinate. -/
def vec {N : ℕ} (g : (⟨1, ![N]⟩ : Shape).Idx → EReal) : Fin N → EReal := fun k => g (ix1 k)

/-- A matrix as a function of its two coordinates. -/
def mat {K N : ℕ} (w : (⟨2, ![K, N]⟩ : Shape).Idx → EReal) : Fin K → Fin N → EReal := fun k q => w (ix2 k q)

/-- A row times a matrix: entry q is Σ_k r_k · w_{k q}. -/
def rowMat {K N : ℕ} (r : Fin K → EReal) (w : Fin K → Fin N → EReal) : Fin N → EReal := fun q => ∑ k, r k * w k q

/-- The scale of a row: the reciprocal square root of (Σ_k r_k² divided by the number `cN` encodes, plus the number
    `ce` encodes). -/
def scale {N : ℕ} (cN ce : BitVec 32) (r : Fin N → EReal) : EReal :=
  Ideal.rsqrt (Ideal.div (∑ k, r k * r k) (Ideal.ofBits .f32 cN) + Ideal.ofBits .f32 ce)

/-- A row normalised by its scale and multiplied entry by entry by a gain row. -/
def rowNorm {N : ℕ} (cN ce : BitVec 32) (r g : Fin N → EReal) : Fin N → EReal := fun q => r q * scale cN ce r * g q

/-- Rows of equal matrices' sums: row p of a pointwise sum is the sum of the rows. -/
theorem row_addf {M N : ℕ} (a b : FVec Ideal ⟨2, ![M, N]⟩ .f32) (p : Fin M) :
    row (addf a b) p = fun q => row a p q + row b p q := rfl

/-! ## On the vector unit -/

/-- The reduced index `p` with lane `k` put back is (p, k). -/
theorem lift_lane {M N : ℕ} (h : (⟨2, ![M, N]⟩ : Shape).Reduces [1] (⟨1, ![M]⟩ : Shape)) (p : Fin M)
    (k : Fin ((⟨2, ![M, N]⟩ : Shape).size 1)) : h.lift (ix1 p) k = ix2 p (⟨k.val, k.isLt⟩ : Fin N) := by
  funext c; apply Fin.ext
  fin_cases c <;> rfl

/-- A sum along the lanes from zero, at row `p`, is the sum of the row. -/
theorem laneSum_apply {M N : ℕ} (src : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ) (p : Fin M) :
    multiReduction .add [1] ⟨1, ![M]⟩ src 0x00000000#32 hr hφ hacc (ix1 p) = ∑ k : Fin N, src (ix2 p k) := by
  refine (Ideal.multiReduction_add_single src 0x00000000#32 hr hφ hacc (ix1 p)).trans ?_
  exact Finset.sum_congr rfl fun k _ => congrArg src (lift_lane hr p k)

/-- The column of scales as the vector unit computes it. -/
def colScale {M N : ℕ} (cN ce : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) : FVec Ideal ⟨2, ![M, 1]⟩ .f32 :=
  rsqrt (addf (divf (shapeCast ⟨2, ![M, 1]⟩ (multiReduction .add [1] ⟨1, ![M]⟩ (mulf a a) 0x00000000#32 hr hφ hacc) hc)
    (broadcast ⟨2, ![M, 1]⟩ (Scalar.ofBits .f32 cN))) (broadcast ⟨2, ![M, 1]⟩ (Scalar.ofBits .f32 ce)))

/-- The column of scales at row `p` is the scale of row `p`. -/
theorem colScale_apply {M N : ℕ} (cN ce : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (p : Fin M) (z : Fin 1) :
    colScale cN ce a hr hφ hacc hc (ix2 p z) = scale cN ce (row a p) := by
  have h1 : shapeCast ⟨2, ![M, 1]⟩ (multiReduction .add [1] ⟨1, ![M]⟩ (mulf a a) 0x00000000#32 hr hφ hacc) hc (ix2 p z)
      = ∑ k : Fin N, row a p k * row a p k :=
    (Cert.ColRowBroadcast.colCast_apply _ hc p z).trans (laneSum_apply (mulf a a) hr hφ hacc p)
  exact congrArg (fun s => Ideal.rsqrt (Ideal.div s (Ideal.ofBits .f32 cN) + Ideal.ofBits .f32 ce)) h1

/-- Root-mean-square normalisation of the rows of `a` with gain `g`, as the vector unit computes it. -/
def vectorNorm {M N : ℕ} (cN ce : BitVec 32) (a : FVec Ideal ⟨2, ![M, N]⟩ .f32) (g : FVec Ideal ⟨1, ![N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hg : (⟨1, ![N]⟩ : Shape).ShapeCasts ⟨2, ![1, N]⟩) (hgb : (⟨2, ![1, N]⟩ : Shape).Broadcasts ⟨2, ![M, N]⟩) :
    FVec Ideal ⟨2, ![M, N]⟩ .f32 :=
  mulf (mulf a (broadcastTo ⟨2, ![M, N]⟩ (colScale cN ce a hr hφ hacc hc) hb))
    (broadcastTo ⟨2, ![M, N]⟩ (shapeCast ⟨2, ![1, N]⟩ g hg) hgb)

/-- Row `p` of the vector unit's normalisation is rowNorm of row `p`. -/
theorem vectorNorm_row {M N : ℕ} (cN ce : BitVec 32) (a : FVec Ideal ⟨2, ![M, N]⟩ .f32) (g : FVec Ideal ⟨1, ![N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hg : (⟨1, ![N]⟩ : Shape).ShapeCasts ⟨2, ![1, N]⟩) (hgb : (⟨2, ![1, N]⟩ : Shape).Broadcasts ⟨2, ![M, N]⟩) (p : Fin M) :
    row (vectorNorm cN ce a g hr hφ hacc hc hb hg hgb) p = rowNorm cN ce (row a p) (vec g) := by
  funext q
  have hs : broadcastTo ⟨2, ![M, N]⟩ (colScale cN ce a hr hφ hacc hc) hb (ix2 p q) = scale cN ce (row a p) :=
    (Cert.ColRowBroadcast.colBroadcast_apply _ hb p q).trans (colScale_apply cN ce a hr hφ hacc hc p 0)
  have hq : broadcastTo ⟨2, ![M, N]⟩ (shapeCast ⟨2, ![1, N]⟩ g hg) hgb (ix2 p q) = vec g q :=
    (Cert.ColRowBroadcast.rowBroadcast_apply _ hgb p q).trans (Cert.ColRowBroadcast.rowCast_apply g hg 0 q)
  show a (ix2 p q) * broadcastTo ⟨2, ![M, N]⟩ (colScale cN ce a hr hφ hacc hc) hb (ix2 p q)
      * broadcastTo ⟨2, ![M, N]⟩ (shapeCast ⟨2, ![1, N]⟩ g hg) hgb (ix2 p q) = _
  rw [hs, hq]
  rfl

/-! ## On the host -/

/-- The host's sum over the last axis from a scalar zero, at row `p`, is the sum of the row. -/
theorem hostSum_apply {M N : ℕ} (src : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel) (p : Fin M) :
    Host.reduceAdd src (constant (F := Ideal) ⟨0, ![]⟩ .f32 0x00000000#32) hrt h0 (ix1 p) = ∑ k : Fin N, src (ix2 p k) := by
  show Ideal.hostReduceAdd hrt src (Ideal.ofBits .f32 0x00000000#32) (ix1 p) = _
  rw [Ideal.hostReduceAdd_single hrt hr, Ideal.ofBits_zero_f32, zero_add]
  exact Finset.sum_congr rfl fun k _ => congrArg src (lift_lane hr p k)

/-- A scalar broadcast to any shape reads the scalar everywhere. -/
theorem scalarBroadcast_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 (fun a => a.elim0)

/-- A vector of `a` entries broadcast to a column [a, 1] reads, at (p, 0), entry `p`. -/
theorem hostCol_apply {α : Type} {a : ℕ} (u : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h u (ix2 p z) = u (ix1 p) := by
  refine broadcastInDim_apply _ h u (ix2 p z) (ix1 p) fun c => ?_
  match c with
  | ⟨0, _⟩ =>
    show p.val = if a = 1 then 0 else p.val
    split
    · have := p.isLt; omega
    · rfl

/-- A column [a, 1] broadcast along the last axis to [a, b] reads, at (p, q), the column at (p, 0). -/
theorem hostColBroadcast_apply {α : Type} {a b : ℕ} (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply _ h w (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A vector of `b` entries broadcast to a row [1, b] reads, at (0, q), entry `q`. -/
theorem hostRow_apply {α : Type} {b : ℕ} (u : (⟨1, ![b]⟩ : Shape).Idx → α)
    (h : (⟨1, ![b]⟩ : Shape).BroadcastsInDim ⟨2, ![1, b]⟩ ![1]) (z : Fin 1) (q : Fin b) :
    broadcastInDim ⟨2, ![1, b]⟩ ![1] h u (ix2 z q) = u (ix1 q) := by
  refine broadcastInDim_apply _ h u (ix2 z q) (ix1 q) fun c => ?_
  match c with
  | ⟨0, _⟩ =>
    show q.val = if b = 1 then 0 else q.val
    split
    · have := q.isLt; omega
    · rfl

/-- A row [1, b] broadcast down the first axis to [a, b] reads, at (p, q), the row at (0, q). -/
theorem hostRowBroadcast_apply {α : Type} {a b : ℕ} (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply _ h w (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

/-- The column of scales as the host computes it. -/
def hostColScale {M N : ℕ} (cN ce : BitVec 32) (a : FVec Ideal ⟨2, ![M, N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) : FVec Ideal ⟨2, ![M, 1]⟩ .f32 :=
  Host.rsqrt (addf (Host.divf
      (broadcastInDim ⟨2, ![M, 1]⟩ ![0] hb1 (Host.reduceAdd (mulf a a) (constant (F := Ideal) ⟨0, ![]⟩ .f32 0x00000000#32) hrt h0))
      (broadcastInDim ⟨2, ![M, 1]⟩ ![] hbs (constant (F := Ideal) ⟨0, ![]⟩ .f32 cN)))
    (broadcastInDim ⟨2, ![M, 1]⟩ ![] hbs (constant (F := Ideal) ⟨0, ![]⟩ .f32 ce)))

/-- The host's column of scales at row `p` is the scale of row `p`. -/
theorem hostColScale_apply {M N : ℕ} (cN ce : BitVec 32) (a : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) (p : Fin M) (z : Fin 1) :
    hostColScale cN ce a hrt h0 hb1 hbs (ix2 p z) = scale cN ce (row a p) := by
  have h1 : broadcastInDim ⟨2, ![M, 1]⟩ ![0] hb1
        (Host.reduceAdd (mulf a a) (constant (F := Ideal) ⟨0, ![]⟩ .f32 0x00000000#32) hrt h0) (ix2 p z)
      = ∑ k : Fin N, row a p k * row a p k :=
    (hostCol_apply _ hb1 p z).trans (hostSum_apply (mulf a a) hrt hr h0 p)
  have h2 : broadcastInDim ⟨2, ![M, 1]⟩ ![] hbs (constant (F := Ideal) ⟨0, ![]⟩ .f32 cN) (ix2 p z) = Ideal.ofBits .f32 cN :=
    scalarBroadcast_apply _ hbs (ix2 p z)
  have h3 : broadcastInDim ⟨2, ![M, 1]⟩ ![] hbs (constant (F := Ideal) ⟨0, ![]⟩ .f32 ce) (ix2 p z) = Ideal.ofBits .f32 ce :=
    scalarBroadcast_apply _ hbs (ix2 p z)
  show Ideal.rsqrt (Ideal.div
      (broadcastInDim ⟨2, ![M, 1]⟩ ![0] hb1 (Host.reduceAdd (mulf a a) (constant (F := Ideal) ⟨0, ![]⟩ .f32 0x00000000#32) hrt h0) (ix2 p z))
      (broadcastInDim ⟨2, ![M, 1]⟩ ![] hbs (constant (F := Ideal) ⟨0, ![]⟩ .f32 cN) (ix2 p z))
    + broadcastInDim ⟨2, ![M, 1]⟩ ![] hbs (constant (F := Ideal) ⟨0, ![]⟩ .f32 ce) (ix2 p z)) = _
  rw [h1, h2, h3]
  rfl

/-- Root-mean-square normalisation of the rows of `a` with gain `g`, as the host computes it. -/
def hostNorm {M N : ℕ} (cN ce : BitVec 32) (a : FVec Ideal ⟨2, ![M, N]⟩ .f32) (g : FVec Ideal ⟨1, ![N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) : FVec Ideal ⟨2, ![M, N]⟩ .f32 :=
  mulf (mulf a (broadcastInDim ⟨2, ![M, N]⟩ ![0, 1] hbc (hostColScale cN ce a hrt h0 hb1 hbs)))
    (broadcastInDim ⟨2, ![M, N]⟩ ![0, 1] hgb (broadcastInDim ⟨2, ![1, N]⟩ ![1] hg g))

/-- Row `p` of the host's normalisation is rowNorm of row `p`. -/
theorem hostNorm_row {M N : ℕ} (cN ce : BitVec 32) (a : FVec Ideal ⟨2, ![M, N]⟩ .f32) (g : FVec Ideal ⟨1, ![N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) (p : Fin M) :
    row (hostNorm cN ce a g hrt h0 hb1 hbs hbc hg hgb) p = rowNorm cN ce (row a p) (vec g) := by
  funext q
  have hs : broadcastInDim ⟨2, ![M, N]⟩ ![0, 1] hbc (hostColScale cN ce a hrt h0 hb1 hbs) (ix2 p q) = scale cN ce (row a p) :=
    (hostColBroadcast_apply _ hbc p q).trans (hostColScale_apply cN ce a hrt hr h0 hb1 hbs p 0)
  have hq : broadcastInDim ⟨2, ![M, N]⟩ ![0, 1] hgb (broadcastInDim ⟨2, ![1, N]⟩ ![1] hg g) (ix2 p q) = vec g q :=
    (hostRowBroadcast_apply _ hgb p q).trans (hostRow_apply g hg 0 q)
  show a (ix2 p q) * broadcastInDim ⟨2, ![M, N]⟩ ![0, 1] hbc (hostColScale cN ce a hrt h0 hb1 hbs) (ix2 p q)
      * broadcastInDim ⟨2, ![M, N]⟩ ![0, 1] hgb (broadcastInDim ⟨2, ![1, N]⟩ ![1] hg g) (ix2 p q) = _
  rw [hs, hq]
  rfl

end Cert.RmsNorm

end
-- ==== Proof.LibReluL2Norm.lean ====
/-
  A dense layer followed by a rectifier and a Euclidean normalisation of each row, read one row at a time on the
  extended reals, over any sizes.

  A row r of K entries is multiplied by a K × N matrix w, each entry of the product is replaced by its maximum with
  a number z (zero, as the programs spell it), and the resulting row y is divided by max(√(Σ_j y_j · y_j), e), e a small
  floor:
      unit z e w r q = max((r·w)_q, z) / max(√(Σ_j max((r·w)_j, z)²), e).

  The same function is computed two ways. On the vector unit, for a block of M rows: a matrix product into a zero
  accumulator, a maximum with a splat scalar, a square, a sum along the lanes from zero, the sums laid out as a
  column, a square root, a maximum with a splat scalar, the column spread along the lanes, a division. On the host,
  for a whole array of M rows: a dot_general, a maximum with a broadcast scalar, a square, a reduce-add over the last
  axis from a scalar zero, a broadcast to a column, a square root, a maximum with a broadcast scalar, a broadcast
  along the last axis, a division. Both, read at row p, are unit of row p of the operand. Nothing here needs the
  entries to be finite: both sides apply the same operations to the same sums.

  Also here: the layer on a whole array as one function of the array's index (layer), its value at (p, q), and that
  it only looks at row p — so a block of rows of the array goes to the same block of rows of the result.
-/
import Idealize.ShloMosaic.PureOps.Ideal.Laws
import Idealize.ShloMosaic.Lib.Pipeline.Value
import Idealize.ShloMosaic.Lib.ValueIdx
import proofs.«167505_j4269197492538_2_alg».proof.Proof.LibColRowBroadcast
import proofs.«167505_j4269197492538_2_alg».proof.Proof.LibPlainMatmul
import proofs.«167505_j4269197492538_2_alg».proof.Proof.LibHostReads
import proofs.«167505_j4269197492538_2_alg».proof.Proof.LibRmsNorm

noncomputable section

open scoped BigOperators

namespace Cert.ReluL2Norm

open Idealize.ShloMosaic Idealize.ShloMosaic.ValueIdx
open Cert.RmsNorm (row mat rowMat)

/-! ## One row -/

/-- Each entry replaced by its maximum with `z`. -/
def act {N : ℕ} (z : EReal) (r : Fin N → EReal) : Fin N → EReal := fun q => max (r q) z

/-- A row divided by the larger of its Euclidean length and `e`. -/
def normalize {N : ℕ} (e : EReal) (y : Fin N → EReal) : Fin N → EReal :=
  fun q => Ideal.div (y q) (max (Ideal.sqrt (∑ j, y j * y j)) e)

/-- A row through the dense layer, the rectifier and the normalisation. -/
def unit {K N : ℕ} (z e : EReal) (w : Fin K → Fin N → EReal) (r : Fin K → EReal) : Fin N → EReal :=
  normalize e (act z (rowMat r w))

/-! ## On the vector unit -/

/-- The product of a block of rows with the matrix into zeros, rectified, as the vector unit computes it. -/
def vectorAct {M K N : ℕ} (cz : BitVec 32) (prec : Option ContractPrecision)
    (x : FVec Ideal ⟨2, ![M, K]⟩ .f32) (w : FVec Ideal ⟨2, ![K, N]⟩ .f32)
    (hx : (⟨2, ![M, K]⟩ : Shape).ShapeCasts ⟨2, ![M, K]⟩) : FVec Ideal ⟨2, ![M, N]⟩ .f32 :=
  maximumf (matmul (DotDims.plain M K N) prec (shapeCast ⟨2, ![M, K]⟩ x hx) w (constant ⟨2, ![M, N]⟩ .f32 0x00000000#32))
    (broadcast ⟨2, ![M, N]⟩ (Scalar.ofBits .f32 cz))

/-- Row `p` of it is the rectified product of row `p` with the matrix. -/
theorem vectorAct_apply {M K N : ℕ} (cz : BitVec 32) (prec : Option ContractPrecision)
    (x : FVec Ideal ⟨2, ![M, K]⟩ .f32) (w : FVec Ideal ⟨2, ![K, N]⟩ .f32)
    (hx : (⟨2, ![M, K]⟩ : Shape).ShapeCasts ⟨2, ![M, K]⟩) (p : Fin M) (q : Fin N) :
    vectorAct cz prec x w hx (ix2 p q) = act (Ideal.ofBits .f32 cz) (rowMat (row x p) (mat w)) q := by
  show max (FloatOps.matmul (DotDims.plain M K N) prec (shapeCast ⟨2, ![M, K]⟩ x hx) w
      (constant ⟨2, ![M, N]⟩ .f32 0x00000000#32) (ix2 p q)) (Ideal.ofBits .f32 cz) = _
  rw [Cert.PlainMatmul.matmul_zero_apply, shapeCast_self]
  rfl

/-- The whole layer on a block of rows, as the vector unit computes it. -/
def vectorLayer {M K N : ℕ} (cz ce : BitVec 32) (prec : Option ContractPrecision)
    (x : FVec Ideal ⟨2, ![M, K]⟩ .f32) (w : FVec Ideal ⟨2, ![K, N]⟩ .f32)
    (hx : (⟨2, ![M, K]⟩ : Shape).ShapeCasts ⟨2, ![M, K]⟩)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩) :
    FVec Ideal ⟨2, ![M, N]⟩ .f32 :=
  divf (vectorAct cz prec x w hx)
    (broadcastTo ⟨2, ![M, N]⟩
      (maximumf
        (sqrt (shapeCast ⟨2, ![M, 1]⟩
          (multiReduction .add [1] ⟨1, ![M]⟩ (mulf (vectorAct cz prec x w hx) (vectorAct cz prec x w hx)) 0x00000000#32 hr hφ hacc) hc))
        (broadcast ⟨2, ![M, 1]⟩ (Scalar.ofBits .f32 ce))) hb)

/-- Row `p` of the vector unit's layer is unit of row `p`. -/
theorem vectorLayer_row {M K N : ℕ} (cz ce : BitVec 32) (prec : Option ContractPrecision)
    (x : FVec Ideal ⟨2, ![M, K]⟩ .f32) (w : FVec Ideal ⟨2, ![K, N]⟩ .f32)
    (hx : (⟨2, ![M, K]⟩ : Shape).ShapeCasts ⟨2, ![M, K]⟩)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩) (p : Fin M) :
    row (vectorLayer cz ce prec x w hx hr hφ hacc hc hb) p
      = unit (Ideal.ofBits .f32 cz) (Ideal.ofBits .f32 ce) (mat w) (row x p) := by
  funext q
  have hsum : shapeCast ⟨2, ![M, 1]⟩
        (multiReduction .add [1] ⟨1, ![M]⟩ (mulf (vectorAct cz prec x w hx) (vectorAct cz prec x w hx)) 0x00000000#32 hr hφ hacc) hc
        (ix2 p (0 : Fin 1))
      = ∑ j : Fin N, act (Ideal.ofBits .f32 cz) (rowMat (row x p) (mat w)) j * act (Ideal.ofBits .f32 cz) (rowMat (row x p) (mat w)) j := by
    refine (Cert.ColRowBroadcast.colCast_apply _ hc p 0).trans ?_
    refine (Cert.RmsNorm.laneSum_apply _ hr hφ hacc p).trans ?_
    refine Finset.sum_congr rfl fun j _ => ?_
    show vectorAct cz prec x w hx (ix2 p j) * vectorAct cz prec x w hx (ix2 p j) = _
    rw [vectorAct_apply]
  have hden : broadcastTo ⟨2, ![M, N]⟩
        (maximumf
          (sqrt (shapeCast ⟨2, ![M, 1]⟩
            (multiReduction .add [1] ⟨1, ![M]⟩ (mulf (vectorAct cz prec x w hx) (vectorAct cz prec x w hx)) 0x00000000#32 hr hφ hacc) hc))
          (broadcast ⟨2, ![M, 1]⟩ (Scalar.ofBits .f32 ce))) hb (ix2 p q)
      = max (Ideal.sqrt (∑ j : Fin N, act (Ideal.ofBits .f32 cz) (rowMat (row x p) (mat w)) j
          * act (Ideal.ofBits .f32 cz) (rowMat (row x p) (mat w)) j)) (Ideal.ofBits .f32 ce) := by
    refine (Cert.ColRowBroadcast.colBroadcast_apply _ hb p q).trans ?_
    show max (Ideal.sqrt (shapeCast ⟨2, ![M, 1]⟩ _ hc (ix2 p (0 : Fin 1)))) (Ideal.ofBits .f32 ce) = _
    rw [hsum]
  show Ideal.div (vectorAct cz prec x w hx (ix2 p q)) (broadcastTo ⟨2, ![M, N]⟩ _ hb (ix2 p q)) = _
  rw [hden, vectorAct_apply]
  rfl

/-! ## On the host -/

/-- The product of the whole array with the matrix, rectified, as the host computes it. -/
def hostAct {M K N : ℕ} (cz : BitVec 32) (prec : Option ContractPrecision)
    (x : FVec Ideal ⟨2, ![M, K]⟩ .f32) (w : FVec Ideal ⟨2, ![K, N]⟩ .f32)
    (hbz : (⟨0, ![]⟩ : Shape).BroadcastsInDim ⟨2, ![M, N]⟩ ![]) : FVec Ideal ⟨2, ![M, N]⟩ .f32 :=
  maximumf (Host.dotGeneral (DotDims.plain M K N) prec x w)
    (broadcastInDim ⟨2, ![M, N]⟩ ![] hbz (constant (F := Ideal) ⟨0, ![]⟩ .f32 cz))

/-- Row `p` of it is the rectified product of row `p` with the matrix. -/
theorem hostAct_apply {M K N : ℕ} (cz : BitVec 32) (prec : Option ContractPrecision)
    (x : FVec Ideal ⟨2, ![M, K]⟩ .f32) (w : FVec Ideal ⟨2, ![K, N]⟩ .f32)
    (hbz : (⟨0, ![]⟩ : Shape).BroadcastsInDim ⟨2, ![M, N]⟩ ![]) (p : Fin M) (q : Fin N) :
    hostAct cz prec x w hbz (ix2 p q) = act (Ideal.ofBits .f32 cz) (rowMat (row x p) (mat w)) q := by
  show max (Host.dotGeneral (F := Ideal) (DotDims.plain M K N) prec x w (ix2 p q))
      (broadcastInDim ⟨2, ![M, N]⟩ ![] hbz (constant (F := Ideal) ⟨0, ![]⟩ .f32 cz) (ix2 p q)) = _
  rw [Cert.LibHostReads.dotGeneral_plain_apply, Cert.RmsNorm.scalarBroadcast_apply]
  rfl

/-- The column of divisors as the host computes it: per row, the larger of the Euclidean length and the floor. -/
def hostColumn {M K N : ℕ} (cz ce : BitVec 32) (prec : Option ContractPrecision)
    (x : FVec Ideal ⟨2, ![M, K]⟩ .f32) (w : FVec Ideal ⟨2, ![K, N]⟩ .f32)
    (hbz : (⟨0, ![]⟩ : Shape).BroadcastsInDim ⟨2, ![M, N]⟩ ![])
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) : FVec Ideal ⟨2, ![M, 1]⟩ .f32 :=
  maximumf
    (Host.sqrt (broadcastInDim ⟨2, ![M, 1]⟩ ![0] hb1
      (Host.reduceAdd (mulf (hostAct cz prec x w hbz) (hostAct cz prec x w hbz))
        (constant (F := Ideal) ⟨0, ![]⟩ .f32 0x00000000#32) hrt h0)))
    (broadcastInDim ⟨2, ![M, 1]⟩ ![] hbs (constant (F := Ideal) ⟨0, ![]⟩ .f32 ce))

/-- The column at row `p` is the divisor of row `p`. -/
theorem hostColumn_apply {M K N : ℕ} (cz ce : BitVec 32) (prec : Option ContractPrecision)
    (x : FVec Ideal ⟨2, ![M, K]⟩ .f32) (w : FVec Ideal ⟨2, ![K, N]⟩ .f32)
    (hbz : (⟨0, ![]⟩ : Shape).BroadcastsInDim ⟨2, ![M, N]⟩ ![])
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) (p : Fin M) (z : Fin 1) :
    hostColumn cz ce prec x w hbz hrt h0 hb1 hbs (ix2 p z)
      = max (Ideal.sqrt (∑ j : Fin N, act (Ideal.ofBits .f32 cz) (rowMat (row x p) (mat w)) j
          * act (Ideal.ofBits .f32 cz) (rowMat (row x p) (mat w)) j)) (Ideal.ofBits .f32 ce) := by
  have hsum : broadcastInDim ⟨2, ![M, 1]⟩ ![0] hb1
        (Host.reduceAdd (mulf (hostAct cz prec x w hbz) (hostAct cz prec x w hbz))
          (constant (F := Ideal) ⟨0, ![]⟩ .f32 0x00000000#32) hrt h0) (ix2 p z)
      = ∑ j : Fin N, act (Ideal.ofBits .f32 cz) (rowMat (row x p) (mat w)) j * act (Ideal.ofBits .f32 cz) (rowMat (row x p) (mat w)) j := by
    refine (Cert.RmsNorm.hostCol_apply _ hb1 p z).trans ?_
    refine (Cert.RmsNorm.hostSum_apply _ hrt hr h0 p).trans ?_
    refine Finset.sum_congr rfl fun j _ => ?_
    show hostAct cz prec x w hbz (ix2 p j) * hostAct cz prec x w hbz (ix2 p j) = _
    rw [hostAct_apply]
  have hfl : broadcastInDim ⟨2, ![M, 1]⟩ ![] hbs (constant (F := Ideal) ⟨0, ![]⟩ .f32 ce) (ix2 p z) = Ideal.ofBits .f32 ce :=
    Cert.RmsNorm.scalarBroadcast_apply _ hbs (ix2 p z)
  show max (Ideal.sqrt (broadcastInDim ⟨2, ![M, 1]⟩ ![0] hb1
        (Host.reduceAdd (mulf (hostAct cz prec x w hbz) (hostAct cz prec x w hbz))
          (constant (F := Ideal) ⟨0, ![]⟩ .f32 0x00000000#32) hrt h0) (ix2 p z)))
      (broadcastInDim ⟨2, ![M, 1]⟩ ![] hbs (constant (F := Ideal) ⟨0, ![]⟩ .f32 ce) (ix2 p z)) = _
  rw [hsum, hfl]

/-- The whole layer on the whole array, as the host computes it. -/
def hostLayer {M K N : ℕ} (cz ce : BitVec 32) (prec : Option ContractPrecision)
    (x : FVec Ideal ⟨2, ![M, K]⟩ .f32) (w : FVec Ideal ⟨2, ![K, N]⟩ .f32)
    (hbz : (⟨0, ![]⟩ : Shape).BroadcastsInDim ⟨2, ![M, N]⟩ ![])
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1]) : FVec Ideal ⟨2, ![M, N]⟩ .f32 :=
  Host.divf (hostAct cz prec x w hbz)
    (broadcastInDim ⟨2, ![M, N]⟩ ![0, 1] hbc (hostColumn cz ce prec x w hbz hrt h0 hb1 hbs))

/-- Row `p` of the host's layer is unit of row `p`. -/
theorem hostLayer_row {M K N : ℕ} (cz ce : BitVec 32) (prec : Option ContractPrecision)
    (x : FVec Ideal ⟨2, ![M, K]⟩ .f32) (w : FVec Ideal ⟨2, ![K, N]⟩ .f32)
    (hbz : (⟨0, ![]⟩ : Shape).BroadcastsInDim ⟨2, ![M, N]⟩ ![])
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1]) (p : Fin M) :
    row (hostLayer cz ce prec x w hbz hrt h0 hb1 hbs hbc) p
      = unit (Ideal.ofBits .f32 cz) (Ideal.ofBits .f32 ce) (mat w) (row x p) := by
  funext q
  have hden : broadcastInDim ⟨2, ![M, N]⟩ ![0, 1] hbc (hostColumn cz ce prec x w hbz hrt h0 hb1 hbs) (ix2 p q)
      = max (Ideal.sqrt (∑ j : Fin N, act (Ideal.ofBits .f32 cz) (rowMat (row x p) (mat w)) j
          * act (Ideal.ofBits .f32 cz) (rowMat (row x p) (mat w)) j)) (Ideal.ofBits .f32 ce) :=
    (Cert.RmsNorm.hostColBroadcast_apply _ hbc p q).trans (hostColumn_apply cz ce prec x w hbz hrt hr h0 hb1 hbs p 0)
  show Ideal.div (hostAct cz prec x w hbz (ix2 p q))
      (broadcastInDim ⟨2, ![M, N]⟩ ![0, 1] hbc (hostColumn cz ce prec x w hbz hrt h0 hb1 hbs) (ix2 p q)) = _
  rw [hden, hostAct_apply]
  rfl

/-! ## The layer on a whole array, as one function of the index -/

/-- The layer applied to every row of an M × K array: entry (p, q) of the result is unit of row p, at q. -/
def layer {M K N : ℕ} (z e : EReal) (x : (⟨2, ![M, K]⟩ : Shape).Idx → EReal) (w : (⟨2, ![K, N]⟩ : Shape).Idx → EReal) :
    (⟨2, ![M, N]⟩ : Shape).Idx → EReal :=
  fun i => unit z e (mat w) (row x ⟨(i 0).val, (i 0).isLt⟩) ⟨(i 1).val, (i 1).isLt⟩

theorem layer_apply {M K N : ℕ} (z e : EReal) (x : (⟨2, ![M, K]⟩ : Shape).Idx → EReal) (w : (⟨2, ![K, N]⟩ : Shape).Idx → EReal)
    (p : Fin M) (q : Fin N) : layer z e x w (ix2 p q) = unit z e (mat w) (row x p) q := rfl

/-- The host's layer IS `layer`. -/
theorem hostLayer_eq_layer {M K N : ℕ} (cz ce : BitVec 32) (prec : Option ContractPrecision)
    (x : FVec Ideal ⟨2, ![M, K]⟩ .f32) (w : FVec Ideal ⟨2, ![K, N]⟩ .f32)
    (hbz : (⟨0, ![]⟩ : Shape).BroadcastsInDim ⟨2, ![M, N]⟩ ![])
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1]) :
    hostLayer cz ce prec x w hbz hrt h0 hb1 hbs hbc = layer (Ideal.ofBits .f32 cz) (Ideal.ofBits .f32 ce) x w := by
  funext i
  rw [eq_ix2 i]
  exact congrFun (hostLayer_row cz ce prec x w hbz hrt hr h0 hb1 hbs hbc (i 0)) (i 1)

/-- A block of rows of the vector unit's layer: if row `p` of the block `xb` is row `r` of the array `x`, and the matrix
    block `wb` is the matrix `w`, then the block's result at (p, q) is the array's layer at (r, q). -/
theorem vectorLayer_block {M B K N : ℕ} (cz ce : BitVec 32) (prec : Option ContractPrecision)
    (x : (⟨2, ![M, K]⟩ : Shape).Idx → EReal) (w : (⟨2, ![K, N]⟩ : Shape).Idx → EReal)
    (xb : FVec Ideal ⟨2, ![B, K]⟩ .f32) (wb : FVec Ideal ⟨2, ![K, N]⟩ .f32)
    (hx : (⟨2, ![B, K]⟩ : Shape).ShapeCasts ⟨2, ![B, K]⟩)
    (hr : (⟨2, ![B, N]⟩ : Shape).Reduces [1] (⟨1, ![B]⟩ : Shape)) (hφ : FKind.Formats .f32)
    (hacc : (0x00000000#32 : BitVec (FTy.bits .f32)) = FKind.add.neutral .f32 hφ)
    (hc : (⟨1, ![B]⟩ : Shape).ShapeCasts ⟨2, ![B, 1]⟩) (hb : (⟨2, ![B, 1]⟩ : Shape).Broadcasts ⟨2, ![B, N]⟩)
    (p : Fin B) (r : Fin M) (q : Fin N) (hw : ∀ (k : Fin K) (j : Fin N), wb (ix2 k j) = w (ix2 k j))
    (hrow : ∀ k : Fin K, xb (ix2 p k) = x (ix2 r k)) :
    vectorLayer cz ce prec xb wb hx hr hφ hacc hc hb (ix2 p q)
      = layer (Ideal.ofBits .f32 cz) (Ideal.ofBits .f32 ce) x w (ix2 r q) := by
  have h := congrFun (vectorLayer_row cz ce prec xb wb hx hr hφ hacc hc hb p) q
  have hrw : row xb p = row x r := funext hrow
  have hmw : mat wb = mat w := funext fun k => funext fun j => hw k j
  rw [hrw, hmw] at h
  exact h

/-- The same block with a running total added in front: a block `tb` of the total, cast to its own shape, plus the
    block's layer is, at (p, q), the total at (r, q) plus the array's layer at (r, q). -/
theorem vectorAccum_block {M B K N : ℕ} (cz ce : BitVec 32) (prec : Option ContractPrecision)
    (tot : (⟨2, ![M, N]⟩ : Shape).Idx → EReal) (x : (⟨2, ![M, K]⟩ : Shape).Idx → EReal) (w : (⟨2, ![K, N]⟩ : Shape).Idx → EReal)
    (tb : FVec Ideal ⟨2, ![B, N]⟩ .f32) (xb : FVec Ideal ⟨2, ![B, K]⟩ .f32) (wb : FVec Ideal ⟨2, ![K, N]⟩ .f32)
    (ht : (⟨2, ![B, N]⟩ : Shape).ShapeCasts ⟨2, ![B, N]⟩)
    (hx : (⟨2, ![B, K]⟩ : Shape).ShapeCasts ⟨2, ![B, K]⟩)
    (hr : (⟨2, ![B, N]⟩ : Shape).Reduces [1] (⟨1, ![B]⟩ : Shape)) (hφ : FKind.Formats .f32)
    (hacc : (0x00000000#32 : BitVec (FTy.bits .f32)) = FKind.add.neutral .f32 hφ)
    (hc : (⟨1, ![B]⟩ : Shape).ShapeCasts ⟨2, ![B, 1]⟩) (hb : (⟨2, ![B, 1]⟩ : Shape).Broadcasts ⟨2, ![B, N]⟩)
    (p : Fin B) (r : Fin M) (q : Fin N) (hw : ∀ (k : Fin K) (j : Fin N), wb (ix2 k j) = w (ix2 k j))
    (hrow : ∀ k : Fin K, xb (ix2 p k) = x (ix2 r k)) (htot : tb (ix2 p q) = tot (ix2 r q)) :
    addf (shapeCast ⟨2, ![B, N]⟩ tb ht) (vectorLayer cz ce prec xb wb hx hr hφ hacc hc hb) (ix2 p q)
      = tot (ix2 r q) + layer (Ideal.ofBits .f32 cz) (Ideal.ofBits .f32 ce) x w (ix2 r q) := by
  show shapeCast ⟨2, ![B, N]⟩ tb ht (ix2 p q) + vectorLayer cz ce prec xb wb hx hr hφ hacc hc hb (ix2 p q) = _
  rw [shapeCast_self, htot, vectorLayer_block cz ce prec x w xb wb hx hr hφ hacc hc hb p r q hw hrow]

end Cert.ReluL2Norm

end
-- ==== Proof.Region0.lean ====
/-
  Launch 0 of the layer kernel, read as whole arrays. The grid has ten points; point t works on rows
  10000·t … 10000·t + 9999 of the row table and on the whole 128 × 128 filter. What point t writes back to the first
  result is the layer (dense, rectified, each row normalised) of its block of rows, which is the same block of rows of
  the layer of the whole table, because the layer treats each row by itself; what it writes back to the second result
  is its block of the running total plus that. The ten blocks tile the 100000 rows, so after the launch the first
  result is the layer of the whole table and the second the running total plus it.
-/
import proofs.«167505_j4269197492538_2_alg».proof.Proof.Gen.KernelIdeal.Frame
import proofs.«167505_j4269197492538_2_alg».proof.Proof.LibReluL2Norm
import Idealize.ShloMosaic.Lib.Pipeline.Value
import Idealize.ShloMosaic.Lib.ValueIdx

set_option maxRecDepth 16384

noncomputable section

namespace Cert.KernelIdeal.Layers.R0

open Cert.KernelIdeal Cert.KernelIdeal.Gen
open Idealize.ShloMosaic Idealize.ShloMosaic.TcCoe Idealize.ShloMosaic.ValueIdx Idealize.SL.Sem
open Idealize.ShloMosaic.Pipeline (Dat)
open Cert.ReluL2Norm

variable (V : (c : Dev nD) → (b : Ref sig .tc) → Buf (Elt Ideal) ((c : Thread nD τ).loc b))

theorem hz : (![0, 0] : Fin 2 → Nat) = fun _ => 0 := funext fun a => by fin_cases a <;> rfl

/-- The row table, the filter and the running total as launch 0 finds them. -/
abbrev xin (c : Dev nD) : S100000x128.Idx → EReal := V c main_v13
abbrev win (c : Dev nD) : S128x128.Idx → EReal := V c main_arg5
abbrev tin (c : Dev nD) : S100000x128.Idx → EReal := V c main_v0

/-- The layer of a row table. -/
abbrev lay (X : S100000x128.Idx → EReal) (W : S128x128.Idx → EReal) : S100000x128.Idx → EReal :=
  layer (M := 100000) (K := 128) (N := 128) (Ideal.ofBits .f32 0x00000000#32) (Ideal.ofBits .f32 0x2B8CBCCC#32) X W

/-- The layer of the row table as launch 0 finds it. -/
abbrev emb (c : Dev nD) : S100000x128.Idx → EReal := lay (xin V c) (win V c)

/-- The running total as launch 0 finds it, plus that layer. -/
abbrev total (c : Dev nD) : S100000x128.Idx → EReal := fun i => tin V c i + emb V c i

/-- The first store's value is the vector unit's layer of the loaded blocks. -/
theorem pay1_eq (x0 : Vec Ideal S10000x128 .f32) (x1 : Vec Ideal S128x128 .f32) :
    k0_pay1 x0 x1 = vectorLayer (M := 10000) (K := 128) (N := 128) 0x00000000#32 0x2B8CBCCC#32 (some .fp32) x0 x1
      shapeCasts_S10000x128_S10000x128 reduces_S10000x128_S10000 (.inl rfl) rfl shapeCasts_S10000_S10000x1
      broadcasts_S10000x1_S10000x128 := rfl

/-- The second store's value is the loaded block of the total plus that. -/
theorem pay2_eq (x0 : Vec Ideal S10000x128 .f32) (x1 : Vec Ideal S128x128 .f32) (x2 : Vec Ideal S10000x128 .f32) :
    k0_pay2 x0 x1 x2 = addf (shapeCast S10000x128 x2 shapeCasts_S10000x128_S10000x128)
      (vectorLayer (M := 10000) (K := 128) (N := 128) 0x00000000#32 0x2B8CBCCC#32 (some .fp32) x0 x1
        shapeCasts_S10000x128_S10000x128 reduces_S10000x128_S10000 (.inl rfl) rfl shapeCasts_S10000_S10000x1
        broadcasts_S10000x1_S10000x128) := rfl

/-- The printed index maps over the grid: the row windows sit at block (t, 0), the filter's at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row 10000·t + p of the table, as an index. -/
def rowOf (t : Fin cfg0.N) (p : Fin 10000) : Fin 100000 :=
  ⟨t.val * 10000 + p.val, by
    have ht : t.val < cfg0.N := t.isLt
    have h10 : cfg0.N = 10 := N_0
    have hp := p.isLt
    omega⟩

theorem rowOf_val (t : Fin cfg0.N) (p : Fin 10000) : (rowOf t p).val = t.val * 10000 + p.val := rfl

/-- The row table's block at point `t`, row `p`, is row 10000·t + p of the table. -/
theorem xblock_row (c : Dev nD) (t : Fin cfg0.N) (p : Fin 10000) (k : Fin 128) :
    (iblk0 V c 0 t : Vec Ideal S10000x128 .f32) (ix2 p k) = xin V c (ix2 (rowOf t p) k) := by
  obtain ⟨e0, e1, -⟩ := idx_facts t
  show xin V c (((cfg0.win 0).blk t).view.emb (ix2 p k)) = _
  refine congrArg (xin V c) (funext fun a => Fin.ext ?_)
  match a with
  | ⟨0, _⟩ => show win0_0.index t (0 : Fin 2) * 10000 + 1 * p.val = t.val * 10000 + p.val; omega
  | ⟨1, _⟩ => show win0_0.index t (1 : Fin 2) * 128 + 1 * k.val = k.val; omega

/-- The filter's block at any point is the filter. -/
theorem wblock (c : Dev nD) (t : Fin cfg0.N) (k : Fin 128) (j : Fin 128) :
    (iblk0 V c 1 t : Vec Ideal S128x128 .f32) (ix2 k j) = win V c (ix2 k j) := by
  obtain ⟨-, -, e0, e1, -⟩ := idx_facts t
  show win V c (((cfg0.win 1).blk t).view.emb (ix2 k j)) = _
  refine congrArg (win V c) (funext fun a => Fin.ext ?_)
  match a with
  | ⟨0, _⟩ => show win0_1.index t (0 : Fin 2) * 128 + 1 * k.val = k.val; omega
  | ⟨1, _⟩ => show win0_1.index t (1 : Fin 2) * 128 + 1 * j.val = j.val; omega

/-- The total's block at point `t`, at (p, q), is the total at row 10000·t + p. -/
theorem tblock (c : Dev nD) (t : Fin cfg0.N) (p : Fin 10000) (q : Fin 128) :
    (iblk0 V c 2 t : Vec Ideal S10000x128 .f32) (ix2 p q) = tin V c (ix2 (rowOf t p) q) := by
  obtain ⟨-, -, -, -, e0, e1, -⟩ := idx_facts t
  show tin V c (((cfg0.win 2).blk t).view.emb (ix2 p q)) = _
  refine congrArg (tin V c) (funext fun a => Fin.ext ?_)
  match a with
  | ⟨0, _⟩ => show win0_2.index t (0 : Fin 2) * 10000 + 1 * p.val = t.val * 10000 + p.val; omega
  | ⟨1, _⟩ => show win0_2.index t (1 : Fin 2) * 128 + 1 * q.val = q.val; omega

/-- WHAT POINT `t` WRITES BACK to the first result is block `t` of the layer of the whole table. -/
theorem flushed3_eq (c : Dev nD) (t : Fin cfg0.N) :
    (dat0 V c).flushed 3 t = ((cfg0.win 3).blk t).view.read (Elt Ideal) (emb V c) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x128) hz]
  rw [pay1_eq]
  obtain ⟨-, -, -, -, -, -, e0, e1, -⟩ := idx_facts t
  refine funext fun (j : S10000x128.Idx) => ?_
  obtain ⟨p, q, rfl⟩ : ∃ (p : Fin 10000) (q : Fin 128), j = ix2 p q := ⟨j 0, j 1, eq_ix2 j⟩
  have hi : ((cfg0.win 3).blk t).view.emb (ix2 p q) = (ix2 (rowOf t p) q : S100000x128.Idx) := by
    funext a; apply Fin.ext
    match a with
    | ⟨0, _⟩ => show win0_3.index t (0 : Fin 2) * 10000 + 1 * p.val = t.val * 10000 + p.val; omega
    | ⟨1, _⟩ => show win0_3.index t (1 : Fin 2) * 128 + 1 * q.val = q.val; omega
  show vectorLayer (M := 10000) (K := 128) (N := 128) 0x00000000#32 0x2B8CBCCC#32 (some .fp32) (iblk0 V c 0 t) (iblk0 V c 1 t)
      shapeCasts_S10000x128_S10000x128 reduces_S10000x128_S10000 (.inl rfl) rfl shapeCasts_S10000_S10000x1
      broadcasts_S10000x1_S10000x128 (ix2 p q) = emb V c (((cfg0.win 3).blk t).view.emb (ix2 p q))
  rw [hi]
  exact vectorLayer_block (M := 100000) 0x00000000#32 0x2B8CBCCC#32 (some .fp32) (xin V c) (win V c)
    (iblk0 V c 0 t) (iblk0 V c 1 t) shapeCasts_S10000x128_S10000x128
    reduces_S10000x128_S10000 (.inl rfl) rfl shapeCasts_S10000_S10000x1 broadcasts_S10000x1_S10000x128 p (rowOf t p) q
    (wblock V c t) (xblock_row V c t p)

/-- WHAT POINT `t` WRITES BACK to the second result is block `t` of the total plus the layer. -/
theorem flushed4_eq (c : Dev nD) (t : Fin cfg0.N) :
    (dat0 V c).flushed 4 t = ((cfg0.win 4).blk t).view.read (Elt Ideal) (total V c) := by
  show (cfg0.win 4).cut (grid0.coords t) ((dat0 V c).after 4 t) = _
  rw [after0_4]
  unfold out0_4
  rw [View.canon_unit_zero hz]
  simp only [View.ld_unit_zero (S := S10000x128) hz, View.ld_unit_zero (S := S128x128) hz]
  rw [pay2_eq]
  obtain ⟨-, -, -, -, -, -, -, -, e0, e1⟩ := idx_facts t
  refine funext fun (j : S10000x128.Idx) => ?_
  obtain ⟨p, q, rfl⟩ : ∃ (p : Fin 10000) (q : Fin 128), j = ix2 p q := ⟨j 0, j 1, eq_ix2 j⟩
  have hi : ((cfg0.win 4).blk t).view.emb (ix2 p q) = (ix2 (rowOf t p) q : S100000x128.Idx) := by
    funext a; apply Fin.ext
    match a with
    | ⟨0, _⟩ => show win0_4.index t (0 : Fin 2) * 10000 + 1 * p.val = t.val * 10000 + p.val; omega
    | ⟨1, _⟩ => show win0_4.index t (1 : Fin 2) * 128 + 1 * q.val = q.val; omega
  show addf (shapeCast S10000x128 (iblk0 V c 2 t) shapeCasts_S10000x128_S10000x128)
      (vectorLayer (M := 10000) (K := 128) (N := 128) 0x00000000#32 0x2B8CBCCC#32 (some .fp32) (iblk0 V c 0 t) (iblk0 V c 1 t)
        shapeCasts_S10000x128_S10000x128 reduces_S10000x128_S10000 (.inl rfl) rfl shapeCasts_S10000_S10000x1
        broadcasts_S10000x1_S10000x128) (ix2 p q) = total V c (((cfg0.win 4).blk t).view.emb (ix2 p q))
  rw [hi]
  exact vectorAccum_block (M := 100000) 0x00000000#32 0x2B8CBCCC#32 (some .fp32) (tin V c) (xin V c) (win V c)
    (iblk0 V c 2 t) (iblk0 V c 0 t) (iblk0 V c 1 t)
    shapeCasts_S10000x128_S10000x128 shapeCasts_S10000x128_S10000x128
    reduces_S10000x128_S10000 (.inl rfl) rfl shapeCasts_S10000_S10000x1 broadcasts_S10000x1_S10000x128 p (rowOf t p) q
    (wblock V c t) (xblock_row V c t p) (tblock V c t p q)

/-- An index of the first result's array is in point `t`'s block iff each coordinate is in the block's range. -/
theorem mem_blk3 (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v14_0).slice (win0_3.rect t)).set ↔ _
  rw [View.set_slice_whole, Rect.mem_set_unit]
  exact Iff.rfl

theorem mem_blk4 (t : Fin cfg0.N) (i : S100000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v14_1).slice (win0_4.rect t)).set ↔ _
  rw [View.set_slice_whole, Rect.mem_set_unit]
  exact Iff.rfl

/-- The point whose block holds row `n`. -/
def pointOf (n : Fin 100000) : Fin cfg0.N :=
  ⟨n.val / 10000, by
    have h10 : cfg0.N = 10 := N_0
    have hn := n.isLt
    omega⟩

/-- THE FIRST RESULT after the launch: the layer of the row table as the launch found it. -/
theorem final3 (c : Dev nD) : (dat0 V c).arrAt 3 cfg0.N = emb V c :=
  (dat0 V c).arrAt_eq_of_cover 3 (emb V c) (fun t _ => flushed3_eq V c t) fun i => by
    have hi0 : (i 0).val < 100000 := (i 0).isLt
    have hi1 : (i 1).val < 128 := (i 1).isLt
    refine ⟨pointOf ⟨(i 0).val, hi0⟩, flush0_3 _, ?_⟩
    rw [mem_blk3]
    obtain ⟨-, -, -, -, -, -, e0, e1, -⟩ := idx_facts (pointOf ⟨(i 0).val, hi0⟩)
    have ev : (pointOf ⟨(i 0).val, hi0⟩).val = (i 0).val / 10000 := rfl
    intro a
    match a with
    | ⟨0, _⟩ => show win0_3.index (pointOf ⟨(i 0).val, hi0⟩) (0 : Fin 2) * 10000 ≤ (i 0).val ∧ (i 0).val < win0_3.index (pointOf ⟨(i 0).val, hi0⟩) (0 : Fin 2) * 10000 + 10000; omega
    | ⟨1, _⟩ => show win0_3.index (pointOf ⟨(i 0).val, hi0⟩) (1 : Fin 2) * 128 ≤ (i 1).val ∧ (i 1).val < win0_3.index (pointOf ⟨(i 0).val, hi0⟩) (1 : Fin 2) * 128 + 128; omega

/-- THE SECOND RESULT after the launch: the running total as the launch found it plus that layer. -/
theorem final4 (c : Dev nD) : (dat0 V c).arrAt 4 cfg0.N = total V c :=
  (dat0 V c).arrAt_eq_of_cover 4 (total V c) (fun t _ => flushed4_eq V c t) fun i => by
    have hi0 : (i 0).val < 100000 := (i 0).isLt
    have hi1 : (i 1).val < 128 := (i 1).isLt
    refine ⟨pointOf ⟨(i 0).val, hi0⟩, flush0_4 _, ?_⟩
    rw [mem_blk4]
    obtain ⟨-, -, -, -, -, -, -, -, e0, e1⟩ := idx_facts (pointOf ⟨(i 0).val, hi0⟩)
    have ev : (pointOf ⟨(i 0).val, hi0⟩).val = (i 0).val / 10000 := rfl
    intro a
    match a with
    | ⟨0, _⟩ => show win0_4.index (pointOf ⟨(i 0).val, hi0⟩) (0 : Fin 2) * 10000 ≤ (i 0).val ∧ (i 0).val < win0_4.index (pointOf ⟨(i 0).val, hi0⟩) (0 : Fin 2) * 10000 + 10000; omega
    | ⟨1, _⟩ => show win0_4.index (pointOf ⟨(i 0).val, hi0⟩) (1 : Fin 2) * 128 ≤ (i 1).val ∧ (i 1).val < win0_4.index (pointOf ⟨(i 0).val, hi0⟩) (1 : Fin 2) * 128 + 128; omega

/-- The same two results once the three arrays the launch reads are known. -/
theorem out3 (c : Dev nD) (X : S100000x128.Idx → EReal) (W : S128x128.Idx → EReal)
    (hx : xin V c = X) (hw : win V c = W) : (dat0 V c).arrAt 3 cfg0.N = lay X W := by
  subst hx hw; exact final3 V c

theorem out4 (c : Dev nD) (X T : S100000x128.Idx → EReal) (W : S128x128.Idx → EReal)
    (hx : xin V c = X) (hw : win V c = W) (ht : tin V c = T) :
    (dat0 V c).arrAt 4 cfg0.N = fun i => T i + lay X W i := by
  subst hx hw ht; exact final4 V c

end Cert.KernelIdeal.Layers.R0

end
-- ==== Proof.Region1.lean ====
/-
  Launch 1 of the layer kernel, read as whole arrays. The grid has ten points; point t works on rows
  10000·t … 10000·t + 9999 of the row table and on the whole 128 × 128 filter. What point t writes back to the first
  result is the layer (dense, rectified, each row normalised) of its block of rows, which is the same block of rows of
  the layer of the whole table, because the layer treats each row by itself; what it writes back to the second result
  is its block of the running total plus that. The ten blocks tile the 100000 rows, so after the launch the first
  result is the layer of the whole table and the second the running total plus it.
-/
import proofs.«167505_j4269197492538_2_alg».proof.Proof.Gen.KernelIdeal.Frame
import proofs.«167505_j4269197492538_2_alg».proof.Proof.LibReluL2Norm
import Idealize.ShloMosaic.Lib.Pipeline.Value
import Idealize.ShloMosaic.Lib.ValueIdx

set_option maxRecDepth 16384

noncomputable section

namespace Cert.KernelIdeal.Layers.R1

open Cert.KernelIdeal Cert.KernelIdeal.Gen
open Idealize.ShloMosaic Idealize.ShloMosaic.TcCoe Idealize.ShloMosaic.ValueIdx Idealize.SL.Sem
open Idealize.ShloMosaic.Pipeline (Dat)
open Cert.ReluL2Norm

variable (V : (c : Dev nD) → (b : Ref sig .tc) → Buf (Elt Ideal) ((c : Thread nD τ).loc b))

theorem hz : (![0, 0] : Fin 2 → Nat) = fun _ => 0 := funext fun a => by fin_cases a <;> rfl

/-- The row table, the filter and the running total as launch 1 finds them. -/
abbrev xin (c : Dev nD) : S100000x128.Idx → EReal := V c main_v27
abbrev win (c : Dev nD) : S128x128.Idx → EReal := V c main_arg6
abbrev tin (c : Dev nD) : S100000x128.Idx → EReal := V c main_v14_1

/-- The layer of a row table. -/
abbrev lay (X : S100000x128.Idx → EReal) (W : S128x128.Idx → EReal) : S100000x128.Idx → EReal :=
  layer (M := 100000) (K := 128) (N := 128) (Ideal.ofBits .f32 0x00000000#32) (Ideal.ofBits .f32 0x2B8CBCCC#32) X W

/-- The layer of the row table as launch 1 finds it. -/
abbrev emb (c : Dev nD) : S100000x128.Idx → EReal := lay (xin V c) (win V c)

/-- The running total as launch 1 finds it, plus that layer. -/
abbrev total (c : Dev nD) : S100000x128.Idx → EReal := fun i => tin V c i + emb V c i

/-- The first store's value is the vector unit's layer of the loaded blocks. -/
theorem pay1_eq (x0 : Vec Ideal S10000x128 .f32) (x1 : Vec Ideal S128x128 .f32) :
    k1_pay1 x0 x1 = vectorLayer (M := 10000) (K := 128) (N := 128) 0x00000000#32 0x2B8CBCCC#32 (some .fp32) x0 x1
      shapeCasts_S10000x128_S10000x128 reduces_S10000x128_S10000 (.inl rfl) rfl shapeCasts_S10000_S10000x1
      broadcasts_S10000x1_S10000x128 := rfl

/-- The second store's value is the loaded block of the total plus that. -/
theorem pay2_eq (x0 : Vec Ideal S10000x128 .f32) (x1 : Vec Ideal S128x128 .f32) (x2 : Vec Ideal S10000x128 .f32) :
    k1_pay2 x0 x1 x2 = addf (shapeCast S10000x128 x2 shapeCasts_S10000x128_S10000x128)
      (vectorLayer (M := 10000) (K := 128) (N := 128) 0x00000000#32 0x2B8CBCCC#32 (some .fp32) x0 x1
        shapeCasts_S10000x128_S10000x128 reduces_S10000x128_S10000 (.inl rfl) rfl shapeCasts_S10000_S10000x1
        broadcasts_S10000x1_S10000x128) := rfl

/-- The printed index maps over the grid: the row windows sit at block (t, 0), the filter's at (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row 10000·t + p of the table, as an index. -/
def rowOf (t : Fin cfg1.N) (p : Fin 10000) : Fin 100000 :=
  ⟨t.val * 10000 + p.val, by
    have ht : t.val < cfg1.N := t.isLt
    have h10 : cfg1.N = 10 := N_1
    have hp := p.isLt
    omega⟩

theorem rowOf_val (t : Fin cfg1.N) (p : Fin 10000) : (rowOf t p).val = t.val * 10000 + p.val := rfl

/-- The row table's block at point `t`, row `p`, is row 10000·t + p of the table. -/
theorem xblock_row (c : Dev nD) (t : Fin cfg1.N) (p : Fin 10000) (k : Fin 128) :
    (iblk1 V c 0 t : Vec Ideal S10000x128 .f32) (ix2 p k) = xin V c (ix2 (rowOf t p) k) := by
  obtain ⟨e0, e1, -⟩ := idx_facts t
  show xin V c (((cfg1.win 0).blk t).view.emb (ix2 p k)) = _
  refine congrArg (xin V c) (funext fun a => Fin.ext ?_)
  match a with
  | ⟨0, _⟩ => show win1_0.index t (0 : Fin 2) * 10000 + 1 * p.val = t.val * 10000 + p.val; omega
  | ⟨1, _⟩ => show win1_0.index t (1 : Fin 2) * 128 + 1 * k.val = k.val; omega

/-- The filter's block at any point is the filter. -/
theorem wblock (c : Dev nD) (t : Fin cfg1.N) (k : Fin 128) (j : Fin 128) :
    (iblk1 V c 1 t : Vec Ideal S128x128 .f32) (ix2 k j) = win V c (ix2 k j) := by
  obtain ⟨-, -, e0, e1, -⟩ := idx_facts t
  show win V c (((cfg1.win 1).blk t).view.emb (ix2 k j)) = _
  refine congrArg (win V c) (funext fun a => Fin.ext ?_)
  match a with
  | ⟨0, _⟩ => show win1_1.index t (0 : Fin 2) * 128 + 1 * k.val = k.val; omega
  | ⟨1, _⟩ => show win1_1.index t (1 : Fin 2) * 128 + 1 * j.val = j.val; omega

/-- The total's block at point `t`, at (p, q), is the total at row 10000·t + p. -/
theorem tblock (c : Dev nD) (t : Fin cfg1.N) (p : Fin 10000) (q : Fin 128) :
    (iblk1 V c 2 t : Vec Ideal S10000x128 .f32) (ix2 p q) = tin V c (ix2 (rowOf t p) q) := by
  obtain ⟨-, -, -, -, e0, e1, -⟩ := idx_facts t
  show tin V c (((cfg1.win 2).blk t).view.emb (ix2 p q)) = _
  refine congrArg (tin V c) (funext fun a => Fin.ext ?_)
  match a with
  | ⟨0, _⟩ => show win1_2.index t (0 : Fin 2) * 10000 + 1 * p.val = t.val * 10000 + p.val; omega
  | ⟨1, _⟩ => show win1_2.index t (1 : Fin 2) * 128 + 1 * q.val = q.val; omega

/-- WHAT POINT `t` WRITES BACK to the first result is block `t` of the layer of the whole table. -/
theorem flushed3_eq (c : Dev nD) (t : Fin cfg1.N) :
    (dat1 V c).flushed 3 t = ((cfg1.win 3).blk t).view.read (Elt Ideal) (emb V c) := by
  show (cfg1.win 3).cut (grid1.coords t) ((dat1 V c).after 3 t) = _
  rw [after1_3]
  unfold out1_3
  rw [View.canon_unit_zero hz]
  simp only [View.ld_unit_zero (S := S10000x128) hz, View.ld_unit_zero (S := S128x128) hz]
  rw [pay1_eq]
  obtain ⟨-, -, -, -, -, -, e0, e1, -⟩ := idx_facts t
  refine funext fun (j : S10000x128.Idx) => ?_
  obtain ⟨p, q, rfl⟩ : ∃ (p : Fin 10000) (q : Fin 128), j = ix2 p q := ⟨j 0, j 1, eq_ix2 j⟩
  have hi : ((cfg1.win 3).blk t).view.emb (ix2 p q) = (ix2 (rowOf t p) q : S100000x128.Idx) := by
    funext a; apply Fin.ext
    match a with
    | ⟨0, _⟩ => show win1_3.index t (0 : Fin 2) * 10000 + 1 * p.val = t.val * 10000 + p.val; omega
    | ⟨1, _⟩ => show win1_3.index t (1 : Fin 2) * 128 + 1 * q.val = q.val; omega
  show vectorLayer (M := 10000) (K := 128) (N := 128) 0x00000000#32 0x2B8CBCCC#32 (some .fp32) (iblk1 V c 0 t) (iblk1 V c 1 t)
      shapeCasts_S10000x128_S10000x128 reduces_S10000x128_S10000 (.inl rfl) rfl shapeCasts_S10000_S10000x1
      broadcasts_S10000x1_S10000x128 (ix2 p q) = emb V c (((cfg1.win 3).blk t).view.emb (ix2 p q))
  rw [hi]
  exact vectorLayer_block (M := 100000) 0x00000000#32 0x2B8CBCCC#32 (some .fp32) (xin V c) (win V c)
    (iblk1 V c 0 t) (iblk1 V c 1 t) shapeCasts_S10000x128_S10000x128
    reduces_S10000x128_S10000 (.inl rfl) rfl shapeCasts_S10000_S10000x1 broadcasts_S10000x1_S10000x128 p (rowOf t p) q
    (wblock V c t) (xblock_row V c t p)

/-- WHAT POINT `t` WRITES BACK to the second result is block `t` of the total plus the layer. -/
theorem flushed4_eq (c : Dev nD) (t : Fin cfg1.N) :
    (dat1 V c).flushed 4 t = ((cfg1.win 4).blk t).view.read (Elt Ideal) (total V c) := by
  show (cfg1.win 4).cut (grid1.coords t) ((dat1 V c).after 4 t) = _
  rw [after1_4]
  unfold out1_4
  rw [View.canon_unit_zero hz]
  simp only [View.ld_unit_zero (S := S10000x128) hz, View.ld_unit_zero (S := S128x128) hz]
  rw [pay2_eq]
  obtain ⟨-, -, -, -, -, -, -, -, e0, e1⟩ := idx_facts t
  refine funext fun (j : S10000x128.Idx) => ?_
  obtain ⟨p, q, rfl⟩ : ∃ (p : Fin 10000) (q : Fin 128), j = ix2 p q := ⟨j 0, j 1, eq_ix2 j⟩
  have hi : ((cfg1.win 4).blk t).view.emb (ix2 p q) = (ix2 (rowOf t p) q : S100000x128.Idx) := by
    funext a; apply Fin.ext
    match a with
    | ⟨0, _⟩ => show win1_4.index t (0 : Fin 2) * 10000 + 1 * p.val = t.val * 10000 + p.val; omega
    | ⟨1, _⟩ => show win1_4.index t (1 : Fin 2) * 128 + 1 * q.val = q.val; omega
  show addf (shapeCast S10000x128 (iblk1 V c 2 t) shapeCasts_S10000x128_S10000x128)
      (vectorLayer (M := 10000) (K := 128) (N := 128) 0x00000000#32 0x2B8CBCCC#32 (some .fp32) (iblk1 V c 0 t) (iblk1 V c 1 t)
        shapeCasts_S10000x128_S10000x128 reduces_S10000x128_S10000 (.inl rfl) rfl shapeCasts_S10000_S10000x1
        broadcasts_S10000x1_S10000x128) (ix2 p q) = total V c (((cfg1.win 4).blk t).view.emb (ix2 p q))
  rw [hi]
  exact vectorAccum_block (M := 100000) 0x00000000#32 0x2B8CBCCC#32 (some .fp32) (tin V c) (xin V c) (win V c)
    (iblk1 V c 2 t) (iblk1 V c 0 t) (iblk1 V c 1 t)
    shapeCasts_S10000x128_S10000x128 shapeCasts_S10000x128_S10000x128
    reduces_S10000x128_S10000 (.inl rfl) rfl shapeCasts_S10000_S10000x1 broadcasts_S10000x1_S10000x128 p (rowOf t p) q
    (wblock V c t) (xblock_row V c t p) (tblock V c t p q)

/-- An index of the first result's array is in point `t`'s block iff each coordinate is in the block's range. -/
theorem mem_blk3 (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v28_0).slice (win1_3.rect t)).set ↔ _
  rw [View.set_slice_whole, Rect.mem_set_unit]
  exact Iff.rfl

theorem mem_blk4 (t : Fin cfg1.N) (i : S100000x128.Idx) :
    i ∈ ((cfg1.win 4).blk t).view.set ↔ ∀ a : Fin 2, win1_4.index t a * S10000x128.size a ≤ (i a).val ∧ (i a).val < win1_4.index t a * S10000x128.size a + S10000x128.size a := by
  show i ∈ ((View.whole main_v28_1).slice (win1_4.rect t)).set ↔ _
  rw [View.set_slice_whole, Rect.mem_set_unit]
  exact Iff.rfl

/-- The point whose block holds row `n`. -/
def pointOf (n : Fin 100000) : Fin cfg1.N :=
  ⟨n.val / 10000, by
    have h10 : cfg1.N = 10 := N_1
    have hn := n.isLt
    omega⟩

/-- THE FIRST RESULT after the launch: the layer of the row table as the launch found it. -/
theorem final3 (c : Dev nD) : (dat1 V c).arrAt 3 cfg1.N = emb V c :=
  (dat1 V c).arrAt_eq_of_cover 3 (emb V c) (fun t _ => flushed3_eq V c t) fun i => by
    have hi0 : (i 0).val < 100000 := (i 0).isLt
    have hi1 : (i 1).val < 128 := (i 1).isLt
    refine ⟨pointOf ⟨(i 0).val, hi0⟩, flush1_3 _, ?_⟩
    rw [mem_blk3]
    obtain ⟨-, -, -, -, -, -, e0, e1, -⟩ := idx_facts (pointOf ⟨(i 0).val, hi0⟩)
    have ev : (pointOf ⟨(i 0).val, hi0⟩).val = (i 0).val / 10000 := rfl
    intro a
    match a with
    | ⟨0, _⟩ => show win1_3.index (pointOf ⟨(i 0).val, hi0⟩) (0 : Fin 2) * 10000 ≤ (i 0).val ∧ (i 0).val < win1_3.index (pointOf ⟨(i 0).val, hi0⟩) (0 : Fin 2) * 10000 + 10000; omega
    | ⟨1, _⟩ => show win1_3.index (pointOf ⟨(i 0).val, hi0⟩) (1 : Fin 2) * 128 ≤ (i 1).val ∧ (i 1).val < win1_3.index (pointOf ⟨(i 0).val, hi0⟩) (1 : Fin 2) * 128 + 128; omega

/-- THE SECOND RESULT after the launch: the running total as the launch found it plus that layer. -/
theorem final4 (c : Dev nD) : (dat1 V c).arrAt 4 cfg1.N = total V c :=
  (dat1 V c).arrAt_eq_of_cover 4 (total V c) (fun t _ => flushed4_eq V c t) fun i => by
    have hi0 : (i 0).val < 100000 := (i 0).isLt
    have hi1 : (i 1).val < 128 := (i 1).isLt
    refine ⟨pointOf ⟨(i 0).val, hi0⟩, flush1_4 _, ?_⟩
    rw [mem_blk4]
    obtain ⟨-, -, -, -, -, -, -, -, e0, e1⟩ := idx_facts (pointOf ⟨(i 0).val, hi0⟩)
    have ev : (pointOf ⟨(i 0).val, hi0⟩).val = (i 0).val / 10000 := rfl
    intro a
    match a with
    | ⟨0, _⟩ => show win1_4.index (pointOf ⟨(i 0).val, hi0⟩) (0 : Fin 2) * 10000 ≤ (i 0).val ∧ (i 0).val < win1_4.index (pointOf ⟨(i 0).val, hi0⟩) (0 : Fin 2) * 10000 + 10000; omega
    | ⟨1, _⟩ => show win1_4.index (pointOf ⟨(i 0).val, hi0⟩) (1 : Fin 2) * 128 ≤ (i 1).val ∧ (i 1).val < win1_4.index (pointOf ⟨(i 0).val, hi0⟩) (1 : Fin 2) * 128 + 128; omega

/-- The same two results once the three arrays the launch reads are known. -/
theorem out3 (c : Dev nD) (X : S100000x128.Idx → EReal) (W : S128x128.Idx → EReal)
    (hx : xin V c = X) (hw : win V c = W) : (dat1 V c).arrAt 3 cfg1.N = lay X W := by
  subst hx hw; exact final3 V c

theorem out4 (c : Dev nD) (X T : S100000x128.Idx → EReal) (W : S128x128.Idx → EReal)
    (hx : xin V c = X) (hw : win V c = W) (ht : tin V c = T) :
    (dat1 V c).arrAt 4 cfg1.N = fun i => T i + lay X W i := by
  subst hx hw ht; exact final4 V c

end Cert.KernelIdeal.Layers.R1

end
-- ==== Proof.Region2.lean ====
/-
  Launch 2 of the layer kernel, read as whole arrays. The grid has ten points; point t works on rows
  10000·t … 10000·t + 9999 of the row table and on the whole 128 × 128 filter. What point t writes back to the first
  result is the layer (dense, rectified, each row normalised) of its block of rows, which is the same block of rows of
  the layer of the whole table, because the layer treats each row by itself; what it writes back to the second result
  is its block of the running total plus that. The ten blocks tile the 100000 rows, so after the launch the first
  result is the layer of the whole table and the second the running total plus it.
-/
import proofs.«167505_j4269197492538_2_alg».proof.Proof.Gen.KernelIdeal.Frame
import proofs.«167505_j4269197492538_2_alg».proof.Proof.LibReluL2Norm
import Idealize.ShloMosaic.Lib.Pipeline.Value
import Idealize.ShloMosaic.Lib.ValueIdx

set_option maxRecDepth 16384

noncomputable section

namespace Cert.KernelIdeal.Layers.R2

open Cert.KernelIdeal Cert.KernelIdeal.Gen
open Idealize.ShloMosaic Idealize.ShloMosaic.TcCoe Idealize.ShloMosaic.ValueIdx Idealize.SL.Sem
open Idealize.ShloMosaic.Pipeline (Dat)
open Cert.ReluL2Norm

variable (V : (c : Dev nD) → (b : Ref sig .tc) → Buf (Elt Ideal) ((c : Thread nD τ).loc b))

theorem hz : (![0, 0] : Fin 2 → Nat) = fun _ => 0 := funext fun a => by fin_cases a <;> rfl

/-- The row table, the filter and the running total as launch 2 finds them. -/
abbrev xin (c : Dev nD) : S100000x128.Idx → EReal := V c main_v41
abbrev win (c : Dev nD) : S128x128.Idx → EReal := V c main_arg7
abbrev tin (c : Dev nD) : S100000x128.Idx → EReal := V c main_v28_1

/-- The layer of a row table. -/
abbrev lay (X : S100000x128.Idx → EReal) (W : S128x128.Idx → EReal) : S100000x128.Idx → EReal :=
  layer (M := 100000) (K := 128) (N := 128) (Ideal.ofBits .f32 0x00000000#32) (Ideal.ofBits .f32 0x2B8CBCCC#32) X W

/-- The layer of the row table as launch 2 finds it. -/
abbrev emb (c : Dev nD) : S100000x128.Idx → EReal := lay (xin V c) (win V c)

/-- The running total as launch 2 finds it, plus that layer. -/
abbrev total (c : Dev nD) : S100000x128.Idx → EReal := fun i => tin V c i + emb V c i

/-- The first store's value is the vector unit's layer of the loaded blocks. -/
theorem pay1_eq (x0 : Vec Ideal S10000x128 .f32) (x1 : Vec Ideal S128x128 .f32) :
    k2_pay1 x0 x1 = vectorLayer (M := 10000) (K := 128) (N := 128) 0x00000000#32 0x2B8CBCCC#32 (some .fp32) x0 x1
      shapeCasts_S10000x128_S10000x128 reduces_S10000x128_S10000 (.inl rfl) rfl shapeCasts_S10000_S10000x1
      broadcasts_S10000x1_S10000x128 := rfl

/-- The second store's value is the loaded block of the total plus that. -/
theorem pay2_eq (x0 : Vec Ideal S10000x128 .f32) (x1 : Vec Ideal S128x128 .f32) (x2 : Vec Ideal S10000x128 .f32) :
    k2_pay2 x0 x1 x2 = addf (shapeCast S10000x128 x2 shapeCasts_S10000x128_S10000x128)
      (vectorLayer (M := 10000) (K := 128) (N := 128) 0x00000000#32 0x2B8CBCCC#32 (some .fp32) x0 x1
        shapeCasts_S10000x128_S10000x128 reduces_S10000x128_S10000 (.inl rfl) rfl shapeCasts_S10000_S10000x1
        broadcasts_S10000x1_S10000x128) := rfl

/-- The printed index maps over the grid: the row windows sit at block (t, 0), the filter's at (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Row 10000·t + p of the table, as an index. -/
def rowOf (t : Fin cfg2.N) (p : Fin 10000) : Fin 100000 :=
  ⟨t.val * 10000 + p.val, by
    have ht : t.val < cfg2.N := t.isLt
    have h10 : cfg2.N = 10 := N_2
    have hp := p.isLt
    omega⟩

theorem rowOf_val (t : Fin cfg2.N) (p : Fin 10000) : (rowOf t p).val = t.val * 10000 + p.val := rfl

/-- The row table's block at point `t`, row `p`, is row 10000·t + p of the table. -/
theorem xblock_row (c : Dev nD) (t : Fin cfg2.N) (p : Fin 10000) (k : Fin 128) :
    (iblk2 V c 0 t : Vec Ideal S10000x128 .f32) (ix2 p k) = xin V c (ix2 (rowOf t p) k) := by
  obtain ⟨e0, e1, -⟩ := idx_facts t
  show xin V c (((cfg2.win 0).blk t).view.emb (ix2 p k)) = _
  refine congrArg (xin V c) (funext fun a => Fin.ext ?_)
  match a with
  | ⟨0, _⟩ => show win2_0.index t (0 : Fin 2) * 10000 + 1 * p.val = t.val * 10000 + p.val; omega
  | ⟨1, _⟩ => show win2_0.index t (1 : Fin 2) * 128 + 1 * k.val = k.val; omega

/-- The filter's block at any point is the filter. -/
theorem wblock (c : Dev nD) (t : Fin cfg2.N) (k : Fin 128) (j : Fin 128) :
    (iblk2 V c 1 t : Vec Ideal S128x128 .f32) (ix2 k j) = win V c (ix2 k j) := by
  obtain ⟨-, -, e0, e1, -⟩ := idx_facts t
  show win V c (((cfg2.win 1).blk t).view.emb (ix2 k j)) = _
  refine congrArg (win V c) (funext fun a => Fin.ext ?_)
  match a with
  | ⟨0, _⟩ => show win2_1.index t (0 : Fin 2) * 128 + 1 * k.val = k.val; omega
  | ⟨1, _⟩ => show win2_1.index t (1 : Fin 2) * 128 + 1 * j.val = j.val; omega

/-- The total's block at point `t`, at (p, q), is the total at row 10000·t + p. -/
theorem tblock (c : Dev nD) (t : Fin cfg2.N) (p : Fin 10000) (q : Fin 128) :
    (iblk2 V c 2 t : Vec Ideal S10000x128 .f32) (ix2 p q) = tin V c (ix2 (rowOf t p) q) := by
  obtain ⟨-, -, -, -, e0, e1, -⟩ := idx_facts t
  show tin V c (((cfg2.win 2).blk t).view.emb (ix2 p q)) = _
  refine congrArg (tin V c) (funext fun a => Fin.ext ?_)
  match a with
  | ⟨0, _⟩ => show win2_2.index t (0 : Fin 2) * 10000 + 1 * p.val = t.val * 10000 + p.val; omega
  | ⟨1, _⟩ => show win2_2.index t (1 : Fin 2) * 128 + 1 * q.val = q.val; omega

/-- WHAT POINT `t` WRITES BACK to the first result is block `t` of the layer of the whole table. -/
theorem flushed3_eq (c : Dev nD) (t : Fin cfg2.N) :
    (dat2 V c).flushed 3 t = ((cfg2.win 3).blk t).view.read (Elt Ideal) (emb V c) := by
  show (cfg2.win 3).cut (grid2.coords t) ((dat2 V c).after 3 t) = _
  rw [after2_3]
  unfold out2_3
  rw [View.canon_unit_zero hz]
  simp only [View.ld_unit_zero (S := S10000x128) hz, View.ld_unit_zero (S := S128x128) hz]
  rw [pay1_eq]
  obtain ⟨-, -, -, -, -, -, e0, e1, -⟩ := idx_facts t
  refine funext fun (j : S10000x128.Idx) => ?_
  obtain ⟨p, q, rfl⟩ : ∃ (p : Fin 10000) (q : Fin 128), j = ix2 p q := ⟨j 0, j 1, eq_ix2 j⟩
  have hi : ((cfg2.win 3).blk t).view.emb (ix2 p q) = (ix2 (rowOf t p) q : S100000x128.Idx) := by
    funext a; apply Fin.ext
    match a with
    | ⟨0, _⟩ => show win2_3.index t (0 : Fin 2) * 10000 + 1 * p.val = t.val * 10000 + p.val; omega
    | ⟨1, _⟩ => show win2_3.index t (1 : Fin 2) * 128 + 1 * q.val = q.val; omega
  show vectorLayer (M := 10000) (K := 128) (N := 128) 0x00000000#32 0x2B8CBCCC#32 (some .fp32) (iblk2 V c 0 t) (iblk2 V c 1 t)
      shapeCasts_S10000x128_S10000x128 reduces_S10000x128_S10000 (.inl rfl) rfl shapeCasts_S10000_S10000x1
      broadcasts_S10000x1_S10000x128 (ix2 p q) = emb V c (((cfg2.win 3).blk t).view.emb (ix2 p q))
  rw [hi]
  exact vectorLayer_block (M := 100000) 0x00000000#32 0x2B8CBCCC#32 (some .fp32) (xin V c) (win V c)
    (iblk2 V c 0 t) (iblk2 V c 1 t) shapeCasts_S10000x128_S10000x128
    reduces_S10000x128_S10000 (.inl rfl) rfl shapeCasts_S10000_S10000x1 broadcasts_S10000x1_S10000x128 p (rowOf t p) q
    (wblock V c t) (xblock_row V c t p)

/-- WHAT POINT `t` WRITES BACK to the second result is block `t` of the total plus the layer. -/
theorem flushed4_eq (c : Dev nD) (t : Fin cfg2.N) :
    (dat2 V c).flushed 4 t = ((cfg2.win 4).blk t).view.read (Elt Ideal) (total V c) := by
  show (cfg2.win 4).cut (grid2.coords t) ((dat2 V c).after 4 t) = _
  rw [after2_4]
  unfold out2_4
  rw [View.canon_unit_zero hz]
  simp only [View.ld_unit_zero (S := S10000x128) hz, View.ld_unit_zero (S := S128x128) hz]
  rw [pay2_eq]
  obtain ⟨-, -, -, -, -, -, -, -, e0, e1⟩ := idx_facts t
  refine funext fun (j : S10000x128.Idx) => ?_
  obtain ⟨p, q, rfl⟩ : ∃ (p : Fin 10000) (q : Fin 128), j = ix2 p q := ⟨j 0, j 1, eq_ix2 j⟩
  have hi : ((cfg2.win 4).blk t).view.emb (ix2 p q) = (ix2 (rowOf t p) q : S100000x128.Idx) := by
    funext a; apply Fin.ext
    match a with
    | ⟨0, _⟩ => show win2_4.index t (0 : Fin 2) * 10000 + 1 * p.val = t.val * 10000 + p.val; omega
    | ⟨1, _⟩ => show win2_4.index t (1 : Fin 2) * 128 + 1 * q.val = q.val; omega
  show addf (shapeCast S10000x128 (iblk2 V c 2 t) shapeCasts_S10000x128_S10000x128)
      (vectorLayer (M := 10000) (K := 128) (N := 128) 0x00000000#32 0x2B8CBCCC#32 (some .fp32) (iblk2 V c 0 t) (iblk2 V c 1 t)
        shapeCasts_S10000x128_S10000x128 reduces_S10000x128_S10000 (.inl rfl) rfl shapeCasts_S10000_S10000x1
        broadcasts_S10000x1_S10000x128) (ix2 p q) = total V c (((cfg2.win 4).blk t).view.emb (ix2 p q))
  rw [hi]
  exact vectorAccum_block (M := 100000) 0x00000000#32 0x2B8CBCCC#32 (some .fp32) (tin V c) (xin V c) (win V c)
    (iblk2 V c 2 t) (iblk2 V c 0 t) (iblk2 V c 1 t)
    shapeCasts_S10000x128_S10000x128 shapeCasts_S10000x128_S10000x128
    reduces_S10000x128_S10000 (.inl rfl) rfl shapeCasts_S10000_S10000x1 broadcasts_S10000x1_S10000x128 p (rowOf t p) q
    (wblock V c t) (xblock_row V c t p) (tblock V c t p q)

/-- An index of the first result's array is in point `t`'s block iff each coordinate is in the block's range. -/
theorem mem_blk3 (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v42_0).slice (win2_3.rect t)).set ↔ _
  rw [View.set_slice_whole, Rect.mem_set_unit]
  exact Iff.rfl

theorem mem_blk4 (t : Fin cfg2.N) (i : S100000x128.Idx) :
    i ∈ ((cfg2.win 4).blk t).view.set ↔ ∀ a : Fin 2, win2_4.index t a * S10000x128.size a ≤ (i a).val ∧ (i a).val < win2_4.index t a * S10000x128.size a + S10000x128.size a := by
  show i ∈ ((View.whole main_v42_1).slice (win2_4.rect t)).set ↔ _
  rw [View.set_slice_whole, Rect.mem_set_unit]
  exact Iff.rfl

/-- The point whose block holds row `n`. -/
def pointOf (n : Fin 100000) : Fin cfg2.N :=
  ⟨n.val / 10000, by
    have h10 : cfg2.N = 10 := N_2
    have hn := n.isLt
    omega⟩

/-- THE FIRST RESULT after the launch: the layer of the row table as the launch found it. -/
theorem final3 (c : Dev nD) : (dat2 V c).arrAt 3 cfg2.N = emb V c :=
  (dat2 V c).arrAt_eq_of_cover 3 (emb V c) (fun t _ => flushed3_eq V c t) fun i => by
    have hi0 : (i 0).val < 100000 := (i 0).isLt
    have hi1 : (i 1).val < 128 := (i 1).isLt
    refine ⟨pointOf ⟨(i 0).val, hi0⟩, flush2_3 _, ?_⟩
    rw [mem_blk3]
    obtain ⟨-, -, -, -, -, -, e0, e1, -⟩ := idx_facts (pointOf ⟨(i 0).val, hi0⟩)
    have ev : (pointOf ⟨(i 0).val, hi0⟩).val = (i 0).val / 10000 := rfl
    intro a
    match a with
    | ⟨0, _⟩ => show win2_3.index (pointOf ⟨(i 0).val, hi0⟩) (0 : Fin 2) * 10000 ≤ (i 0).val ∧ (i 0).val < win2_3.index (pointOf ⟨(i 0).val, hi0⟩) (0 : Fin 2) * 10000 + 10000; omega
    | ⟨1, _⟩ => show win2_3.index (pointOf ⟨(i 0).val, hi0⟩) (1 : Fin 2) * 128 ≤ (i 1).val ∧ (i 1).val < win2_3.index (pointOf ⟨(i 0).val, hi0⟩) (1 : Fin 2) * 128 + 128; omega

/-- THE SECOND RESULT after the launch: the running total as the launch found it plus that layer. -/
theorem final4 (c : Dev nD) : (dat2 V c).arrAt 4 cfg2.N = total V c :=
  (dat2 V c).arrAt_eq_of_cover 4 (total V c) (fun t _ => flushed4_eq V c t) fun i => by
    have hi0 : (i 0).val < 100000 := (i 0).isLt
    have hi1 : (i 1).val < 128 := (i 1).isLt
    refine ⟨pointOf ⟨(i 0).val, hi0⟩, flush2_4 _, ?_⟩
    rw [mem_blk4]
    obtain ⟨-, -, -, -, -, -, -, -, e0, e1⟩ := idx_facts (pointOf ⟨(i 0).val, hi0⟩)
    have ev : (pointOf ⟨(i 0).val, hi0⟩).val = (i 0).val / 10000 := rfl
    intro a
    match a with
    | ⟨0, _⟩ => show win2_4.index (pointOf ⟨(i 0).val, hi0⟩) (0 : Fin 2) * 10000 ≤ (i 0).val ∧ (i 0).val < win2_4.index (pointOf ⟨(i 0).val, hi0⟩) (0 : Fin 2) * 10000 + 10000; omega
    | ⟨1, _⟩ => show win2_4.index (pointOf ⟨(i 0).val, hi0⟩) (1 : Fin 2) * 128 ≤ (i 1).val ∧ (i 1).val < win2_4.index (pointOf ⟨(i 0).val, hi0⟩) (1 : Fin 2) * 128 + 128; omega

/-- The same two results once the three arrays the launch reads are known. -/
theorem out3 (c : Dev nD) (X : S100000x128.Idx → EReal) (W : S128x128.Idx → EReal)
    (hx : xin V c = X) (hw : win V c = W) : (dat2 V c).arrAt 3 cfg2.N = lay X W := by
  subst hx hw; exact final3 V c

theorem out4 (c : Dev nD) (X T : S100000x128.Idx → EReal) (W : S128x128.Idx → EReal)
    (hx : xin V c = X) (hw : win V c = W) (ht : tin V c = T) :
    (dat2 V c).arrAt 4 cfg2.N = fun i => T i + lay X W i := by
  subst hx hw ht; exact final4 V c

end Cert.KernelIdeal.Layers.R2

end
-- ==== Proof.Rounds.lean ====
/-
  The whole computation as one function of the eight argument arrays, on the extended reals.

  The table is the first argument table (60000 rows) stacked on the second (40000 rows): 100000 rows of 128 entries.
  One round takes the current table E, gathers for each of the 1600000 positions of the two index arrays the row of E
  the column index names, scales it by that position's weight and sums the scaled rows by the row index
  (`propagate`: the host's gather, multiply and scatter-add, kept as the host spells them, since both programs run
  the very same operations there); the result goes through a 128 × 128 filter, a rectifier and a Euclidean
  normalisation of each row (`Cert.ReluL2Norm.layer`), giving the next table; and the running total gains that
  table. Three rounds, one filter each; the answer is the running total, cut back into its first 60000 rows and its
  other 40000.

  The shape records and side conditions of the host operations are parameters here: each program supplies its own,
  and records with equal fields are equal.
-/
import Idealize.ShloMosaic.PureOps.Ideal
import Idealize.ShloMosaic.Lib.ValueIdx
import proofs.«167505_j4269197492538_2_alg».proof.Proof.LibReluL2Norm

noncomputable section

namespace Cert.Rounds

open Idealize.ShloMosaic Idealize.ShloMosaic.ValueIdx

abbrev SEdges : Shape := ⟨1, ![1600000]⟩
abbrev SEdges1 : Shape := ⟨2, ![1600000, 1]⟩
abbrev SMsgs : Shape := ⟨2, ![1600000, 128]⟩
abbrev SNodes : Shape := ⟨2, ![100000, 128]⟩
abbrev SFilter : Shape := ⟨2, ![128, 128]⟩
abbrev SScalar : Shape := ⟨0, ![]⟩

/-- The shape records and side conditions one program states for the propagation's host operations. -/
structure Dims where
  g : GatherDims SNodes SEdges1 SMsgs
  sc : ScatterDims SNodes SEdges1 SMsgs
  hcol : SEdges.BroadcastsInDim SEdges1 (![0] : Fin 1 → Fin SEdges1.rank)
  hsplatE : SScalar.BroadcastsInDim SEdges (![] : Fin 0 → Fin SEdges.rank)
  hlanes : SEdges1.BroadcastsInDim SMsgs (![0, 1] : Fin 2 → Fin SMsgs.rank)
  hsplatN : SScalar.BroadcastsInDim SNodes (![] : Fin 0 → Fin SNodes.rank)

/-- One propagation: gather the rows the column indices name (a negative index wrapped by the table's length, as
    the host spells it), scale each by its position's weight, and sum them by row index from zeros. -/
def propagate (d : Dims) (row col : (⟨SEdges, .i32⟩ : BufTy).Contents (Elt Ideal))
    (val : (⟨SEdges, .f32⟩ : BufTy).Contents (Elt Ideal)) (x : (⟨SNodes, .f32⟩ : BufTy).Contents (Elt Ideal)) :
    (⟨SNodes, .f32⟩ : BufTy).Contents (Elt Ideal) :=
  Host.scatterAdd d.sc
    (broadcastInDim SNodes ![] d.hsplatN (constant (F := Ideal) SScalar .f32 0x00000000#32))
    (broadcastInDim SEdges1 ![0] d.hcol row)
    (mulf (broadcastInDim SMsgs ![0, 1] d.hlanes (broadcastInDim SEdges1 ![0] d.hcol val))
      (Host.gather d.g x
        (broadcastInDim SEdges1 ![0] d.hcol
          (select (cmpi .slt col (broadcastInDim SEdges ![] d.hsplatE (constantI SScalar 32 0#32)))
            (addi col (broadcastInDim SEdges ![] d.hsplatE (constantI SScalar 32 100000#32))) col))))

/-- The table after the filter, the rectifier and the row normalisation. -/
abbrev refined (x : SNodes.Idx → EReal) (w : SFilter.Idx → EReal) : SNodes.Idx → EReal :=
  Cert.ReluL2Norm.layer (M := 100000) (K := 128) (N := 128) (Ideal.ofBits .f32 0x00000000#32) (Ideal.ofBits .f32 0x2B8CBCCC#32) x w

/-- The table after round one, two and three, from the stacked table `e0`. -/
def table1 (d : Dims) (row col : (⟨SEdges, .i32⟩ : BufTy).Contents (Elt Ideal)) (val : (⟨SEdges, .f32⟩ : BufTy).Contents (Elt Ideal))
    (e0 : SNodes.Idx → EReal) (w0 : SFilter.Idx → EReal) : SNodes.Idx → EReal :=
  refined (propagate d row col val e0) w0

def table2 (d : Dims) (row col : (⟨SEdges, .i32⟩ : BufTy).Contents (Elt Ideal)) (val : (⟨SEdges, .f32⟩ : BufTy).Contents (Elt Ideal))
    (e0 : SNodes.Idx → EReal) (w0 w1 : SFilter.Idx → EReal) : SNodes.Idx → EReal :=
  refined (propagate d row col val (table1 d row col val e0 w0)) w1

def table3 (d : Dims) (row col : (⟨SEdges, .i32⟩ : BufTy).Contents (Elt Ideal)) (val : (⟨SEdges, .f32⟩ : BufTy).Contents (Elt Ideal))
    (e0 : SNodes.Idx → EReal) (w0 w1 w2 : SFilter.Idx → EReal) : SNodes.Idx → EReal :=
  refined (propagate d row col val (table2 d row col val e0 w0 w1)) w2

/-- The running total after round one, two and three: the stacked table plus each round's table, added in order. -/
def total1 (d : Dims) (row col : (⟨SEdges, .i32⟩ : BufTy).Contents (Elt Ideal)) (val : (⟨SEdges, .f32⟩ : BufTy).Contents (Elt Ideal))
    (e0 : SNodes.Idx → EReal) (w0 : SFilter.Idx → EReal) : SNodes.Idx → EReal :=
  fun i => e0 i + table1 d row col val e0 w0 i

def total2 (d : Dims) (row col : (⟨SEdges, .i32⟩ : BufTy).Contents (Elt Ideal)) (val : (⟨SEdges, .f32⟩ : BufTy).Contents (Elt Ideal))
    (e0 : SNodes.Idx → EReal) (w0 w1 : SFilter.Idx → EReal) : SNodes.Idx → EReal :=
  fun i => total1 d row col val e0 w0 i + table2 d row col val e0 w0 w1 i

def total3 (d : Dims) (row col : (⟨SEdges, .i32⟩ : BufTy).Contents (Elt Ideal)) (val : (⟨SEdges, .f32⟩ : BufTy).Contents (Elt Ideal))
    (e0 : SNodes.Idx → EReal) (w0 w1 w2 : SFilter.Idx → EReal) : SNodes.Idx → EReal :=
  fun i => total2 d row col val e0 w0 w1 i + table3 d row col val e0 w0 w1 w2 i

/-- `total3` at an index, spelt out. -/
theorem total3_apply (d : Dims) (row col : (⟨SEdges, .i32⟩ : BufTy).Contents (Elt Ideal)) (val : (⟨SEdges, .f32⟩ : BufTy).Contents (Elt Ideal))
    (e0 : SNodes.Idx → EReal) (w0 w1 w2 : SFilter.Idx → EReal) (i : SNodes.Idx) :
    total3 d row col val e0 w0 w1 w2 i
      = e0 i + table1 d row col val e0 w0 i + table2 d row col val e0 w0 w1 i + table3 d row col val e0 w0 w1 w2 i := rfl

end Cert.Rounds

end
-- ==== Proof.KernelValue.lean ====
/-
  The idealized kernel's two results as one function of the eight argument arrays.

  The buffers' contents at each boundary of the program are a fold from the launch memory. Read back: the first
  stretch of host operations stacks the two row tables and propagates the stack; each launch of the layer kernel
  leaves the refined table in its first result and the running total plus it in its second (Region0 … Region2); each
  later stretch propagates the last refined table; the last stretch cuts the running total into its first 60000 rows
  and its other 40000. So the results are the two cuts of `Cert.Rounds.total3` of the arguments.
-/
import proofs.«167505_j4269197492538_2_alg».proof.Proof.Gen.KernelIdeal.Frame
import proofs.«167505_j4269197492538_2_alg».proof.Proof.Region0
import proofs.«167505_j4269197492538_2_alg».proof.Proof.Region1
import proofs.«167505_j4269197492538_2_alg».proof.Proof.Region2
import proofs.«167505_j4269197492538_2_alg».proof.Proof.Rounds
import Idealize.ShloMosaic.Lib.StableHlo.Run

set_option maxRecDepth 16384

noncomputable section

namespace Cert.KernelIdeal.Layers

open Cert.KernelIdeal Cert.KernelIdeal.Gen
open Idealize.ShloMosaic Idealize.ShloMosaic.TcCoe Idealize.ShloMosaic.ValueIdx Idealize.SL.Sem Idealize.ShloMosaic.StableHlo
open Cert.Rounds (propagate refined table1 table2 table3 total1 total2 total3)

variable (m : (ℓ : Loc nD τ sig) → Buf (Elt Ideal) ℓ) (ρ : Dev nD → PrngReg)

/-- This program's shape records and side conditions for the propagation. -/
def dims : Cert.Rounds.Dims where
  g := gather_S100000x128_S1600000x1_S1600000x128_1_0_n_n_0_1_1128
  sc := scatter_S100000x128_S1600000x1_S1600000x128_1_0_0_1
  hcol := bcast_S1600000_S1600000x1_0
  hsplatE := bcast_S_S1600000
  hlanes := bcast_S1600000x1_S1600000x128_0_1
  hsplatN := bcast_S_S100000x128

/-- The two row tables stacked. -/
abbrev stack (c : Dev nD) : S100000x128.Idx → EReal :=
  (concatenate S100000x128 0 [⟨S60000x128, (m ((c.tc : Thread nD τ).loc main_arg3))⟩, ⟨S40000x128, (m ((c.tc : Thread nD τ).loc main_arg4))⟩] concatenates_S60000x128_S40000x128_S100000x128_d0)

/-- The three filters. -/
abbrev f0 (c : Dev nD) : S128x128.Idx → EReal := (m ((c.tc : Thread nD τ).loc main_arg5))
abbrev f1 (c : Dev nD) : S128x128.Idx → EReal := (m ((c.tc : Thread nD τ).loc main_arg6))
abbrev f2 (c : Dev nD) : S128x128.Idx → EReal := (m ((c.tc : Thread nD τ).loc main_arg7))

/-- The tables and the running totals after each round, as functions of the arguments. -/
abbrev t1 (c : Dev nD) : S100000x128.Idx → EReal := table1 dims (m ((c.tc : Thread nD τ).loc main_arg0)) (m ((c.tc : Thread nD τ).loc main_arg1)) (m ((c.tc : Thread nD τ).loc main_arg2)) (stack m c) (f0 m c)
abbrev t2 (c : Dev nD) : S100000x128.Idx → EReal := table2 dims (m ((c.tc : Thread nD τ).loc main_arg0)) (m ((c.tc : Thread nD τ).loc main_arg1)) (m ((c.tc : Thread nD τ).loc main_arg2)) (stack m c) (f0 m c) (f1 m c)
abbrev t3 (c : Dev nD) : S100000x128.Idx → EReal := table3 dims (m ((c.tc : Thread nD τ).loc main_arg0)) (m ((c.tc : Thread nD τ).loc main_arg1)) (m ((c.tc : Thread nD τ).loc main_arg2)) (stack m c) (f0 m c) (f1 m c) (f2 m c)
abbrev u1 (c : Dev nD) : S100000x128.Idx → EReal := total1 dims (m ((c.tc : Thread nD τ).loc main_arg0)) (m ((c.tc : Thread nD τ).loc main_arg1)) (m ((c.tc : Thread nD τ).loc main_arg2)) (stack m c) (f0 m c)
abbrev u2 (c : Dev nD) : S100000x128.Idx → EReal := total2 dims (m ((c.tc : Thread nD τ).loc main_arg0)) (m ((c.tc : Thread nD τ).loc main_arg1)) (m ((c.tc : Thread nD τ).loc main_arg2)) (stack m c) (f0 m c) (f1 m c)
abbrev u3 (c : Dev nD) : S100000x128.Idx → EReal := total3 dims (m ((c.tc : Thread nD τ).loc main_arg0)) (m ((c.tc : Thread nD τ).loc main_arg1)) (m ((c.tc : Thread nD τ).loc main_arg2)) (stack m c) (f0 m c) (f1 m c) (f2 m c)

/-! ## The launch memory at the arguments -/

theorem W0_arg0 (c : Dev nD) : W0 m ρ c (Proc.devRef .tc main_arg0) = m ((c.tc : Thread nD τ).loc main_arg0) := rfl
theorem W0_arg1 (c : Dev nD) : W0 m ρ c (Proc.devRef .tc main_arg1) = m ((c.tc : Thread nD τ).loc main_arg1) := rfl
theorem W0_arg2 (c : Dev nD) : W0 m ρ c (Proc.devRef .tc main_arg2) = m ((c.tc : Thread nD τ).loc main_arg2) := rfl
theorem W0_arg3 (c : Dev nD) : W0 m ρ c (Proc.devRef .tc main_arg3) = m ((c.tc : Thread nD τ).loc main_arg3) := rfl
theorem W0_arg4 (c : Dev nD) : W0 m ρ c (Proc.devRef .tc main_arg4) = m ((c.tc : Thread nD τ).loc main_arg4) := rfl
theorem W0_arg5 (c : Dev nD) : W0 m ρ c (Proc.devRef .tc main_arg5) = m ((c.tc : Thread nD τ).loc main_arg5) := rfl
theorem W0_arg6 (c : Dev nD) : W0 m ρ c (Proc.devRef .tc main_arg6) = m ((c.tc : Thread nD τ).loc main_arg6) := rfl
theorem W0_arg7 (c : Dev nD) : W0 m ρ c (Proc.devRef .tc main_arg7) = m ((c.tc : Thread nD τ).loc main_arg7) := rfl

/-! ## Up to the first launch -/

theorem V1_x (c : Dev nD) : (V1 m ρ c main_v13 : S100000x128.Idx → EReal) = propagate dims (m ((c.tc : Thread nD τ).loc main_arg0)) (m ((c.tc : Thread nD τ).loc main_arg1)) (m ((c.tc : Thread nD τ).loc main_arg2)) (stack m c) := by
  have e : (V1 m ρ c main_v13 : S100000x128.Idx → EReal) = propagate dims (W0 m ρ c (Proc.devRef .tc main_arg0)) (W0 m ρ c (Proc.devRef .tc main_arg1)) (W0 m ρ c (Proc.devRef .tc main_arg2)) (concatenate S100000x128 0 [⟨S60000x128, (W0 m ρ c (Proc.devRef .tc main_arg3))⟩, ⟨S40000x128, (W0 m ρ c (Proc.devRef .tc main_arg4))⟩] concatenates_S60000x128_S40000x128_S100000x128_d0) := by
    show StableHlo.after hostOps0 (W0 m ρ c) (Proc.devRef .tc main_v13) = _
    dsimp only [hostOps0]
    after_results_simp
    rfl
  rw [e, W0_arg0 m ρ c, W0_arg1 m ρ c, W0_arg2 m ρ c, W0_arg3 m ρ c, W0_arg4 m ρ c]

theorem V1_w (c : Dev nD) : (V1 m ρ c main_arg5 : S128x128.Idx → EReal) = f0 m c := by
  show StableHlo.after hostOps0 (W0 m ρ c) (Proc.devRef .tc main_arg5) = _
  dsimp only [hostOps0]
  after_results_simp

theorem V1_t (c : Dev nD) : (V1 m ρ c main_v0 : S100000x128.Idx → EReal) = stack m c := by
  have e : (V1 m ρ c main_v0 : S100000x128.Idx → EReal) = (concatenate S100000x128 0 [⟨S60000x128, (W0 m ρ c (Proc.devRef .tc main_arg3))⟩, ⟨S40000x128, (W0 m ρ c (Proc.devRef .tc main_arg4))⟩] concatenates_S60000x128_S40000x128_S100000x128_d0) := by
    show StableHlo.after hostOps0 (W0 m ρ c) (Proc.devRef .tc main_v0) = _
    dsimp only [hostOps0]
    after_results_simp
  rw [e, W0_arg3 m ρ c, W0_arg4 m ρ c]

theorem W1_arg0 (c : Dev nD) : W1 m ρ c (Proc.devRef .tc main_arg0) = m ((c.tc : Thread nD τ).loc main_arg0) := by
  show StableHlo.after hostOps0 (W0 m ρ c) (Proc.devRef .tc main_arg0) = _
  dsimp only [hostOps0]
  after_results_simp
theorem W1_arg1 (c : Dev nD) : W1 m ρ c (Proc.devRef .tc main_arg1) = m ((c.tc : Thread nD τ).loc main_arg1) := by
  show StableHlo.after hostOps0 (W0 m ρ c) (Proc.devRef .tc main_arg1) = _
  dsimp only [hostOps0]
  after_results_simp
theorem W1_arg2 (c : Dev nD) : W1 m ρ c (Proc.devRef .tc main_arg2) = m ((c.tc : Thread nD τ).loc main_arg2) := by
  show StableHlo.after hostOps0 (W0 m ρ c) (Proc.devRef .tc main_arg2) = _
  dsimp only [hostOps0]
  after_results_simp
theorem W1_arg6 (c : Dev nD) : W1 m ρ c (Proc.devRef .tc main_arg6) = m ((c.tc : Thread nD τ).loc main_arg6) := by
  show StableHlo.after hostOps0 (W0 m ρ c) (Proc.devRef .tc main_arg6) = _
  dsimp only [hostOps0]
  after_results_simp
theorem W1_arg7 (c : Dev nD) : W1 m ρ c (Proc.devRef .tc main_arg7) = m ((c.tc : Thread nD τ).loc main_arg7) := by
  show StableHlo.after hostOps0 (W0 m ρ c) (Proc.devRef .tc main_arg7) = _
  dsimp only [hostOps0]
  after_results_simp

/-! ## After the first launch -/

theorem W2_emb (c : Dev nD) : (W2 m ρ c (Proc.devRef .tc main_v14_0) : S100000x128.Idx → EReal) = t1 m c :=
  (W2_arr m ρ c 3).trans (R0.out3 (V1 m ρ) c _ _ (V1_x m ρ c) (V1_w m ρ c))

theorem W2_tot (c : Dev nD) : (W2 m ρ c (Proc.devRef .tc main_v14_1) : S100000x128.Idx → EReal) = u1 m c :=
  (W2_arr m ρ c 4).trans (R0.out4 (V1 m ρ) c _ _ _ (V1_x m ρ c) (V1_w m ρ c) (V1_t m ρ c))

theorem W2_arg0 (c : Dev nD) : W2 m ρ c (Proc.devRef .tc main_arg0) = m ((c.tc : Thread nD τ).loc main_arg0) := by
  exact (W2_of_ne m ρ c main_arg0 (by decide)).trans (W1_arg0 m ρ c)
theorem W2_arg1 (c : Dev nD) : W2 m ρ c (Proc.devRef .tc main_arg1) = m ((c.tc : Thread nD τ).loc main_arg1) := by
  exact (W2_of_ne m ρ c main_arg1 (by decide)).trans (W1_arg1 m ρ c)
theorem W2_arg2 (c : Dev nD) : W2 m ρ c (Proc.devRef .tc main_arg2) = m ((c.tc : Thread nD τ).loc main_arg2) := by
  exact (W2_of_ne m ρ c main_arg2 (by decide)).trans (W1_arg2 m ρ c)
theorem W2_arg6 (c : Dev nD) : W2 m ρ c (Proc.devRef .tc main_arg6) = m ((c.tc : Thread nD τ).loc main_arg6) := by
  exact (W2_of_ne m ρ c main_arg6 (by decide)).trans (W1_arg6 m ρ c)
theorem W2_arg7 (c : Dev nD) : W2 m ρ c (Proc.devRef .tc main_arg7) = m ((c.tc : Thread nD τ).loc main_arg7) := by
  exact (W2_of_ne m ρ c main_arg7 (by decide)).trans (W1_arg7 m ρ c)

/-! ## Up to the second launch -/

theorem V3_x (c : Dev nD) : (V3 m ρ c main_v27 : S100000x128.Idx → EReal) = propagate dims (m ((c.tc : Thread nD τ).loc main_arg0)) (m ((c.tc : Thread nD τ).loc main_arg1)) (m ((c.tc : Thread nD τ).loc main_arg2)) (t1 m c) := by
  have e : (V3 m ρ c main_v27 : S100000x128.Idx → EReal) = propagate dims (W2 m ρ c (Proc.devRef .tc main_arg0)) (W2 m ρ c (Proc.devRef .tc main_arg1)) (W2 m ρ c (Proc.devRef .tc main_arg2)) (W2 m ρ c (Proc.devRef .tc main_v14_0)) := by
    show StableHlo.after hostOps1 (W2 m ρ c) (Proc.devRef .tc main_v27) = _
    dsimp only [hostOps1]
    after_results_simp
    rfl
  rw [e, W2_arg0 m ρ c, W2_arg1 m ρ c, W2_arg2 m ρ c, W2_emb m ρ c]

theorem V3_w (c : Dev nD) : (V3 m ρ c main_arg6 : S128x128.Idx → EReal) = f1 m c := by
  have e : (V3 m ρ c main_arg6 : S128x128.Idx → EReal) = (W2 m ρ c (Proc.devRef .tc main_arg6)) := by
    show StableHlo.after hostOps1 (W2 m ρ c) (Proc.devRef .tc main_arg6) = _
    dsimp only [hostOps1]
    after_results_simp
  rw [e, W2_arg6 m ρ c]

theorem V3_t (c : Dev nD) : (V3 m ρ c main_v14_1 : S100000x128.Idx → EReal) = u1 m c := by
  have e : (V3 m ρ c main_v14_1 : S100000x128.Idx → EReal) = (W2 m ρ c (Proc.devRef .tc main_v14_1)) := by
    show StableHlo.after hostOps1 (W2 m ρ c) (Proc.devRef .tc main_v14_1) = _
    dsimp only [hostOps1]
    after_results_simp
  rw [e, W2_tot m ρ c]

theorem W3_arg0 (c : Dev nD) : W3 m ρ c (Proc.devRef .tc main_arg0) = m ((c.tc : Thread nD τ).loc main_arg0) := by
  have e : W3 m ρ c (Proc.devRef .tc main_arg0) = (W2 m ρ c (Proc.devRef .tc main_arg0)) := by
    show StableHlo.after hostOps1 (W2 m ρ c) (Proc.devRef .tc main_arg0) = _
    dsimp only [hostOps1]
    after_results_simp
  rw [e, W2_arg0 m ρ c]
theorem W3_arg1 (c : Dev nD) : W3 m ρ c (Proc.devRef .tc main_arg1) = m ((c.tc : Thread nD τ).loc main_arg1) := by
  have e : W3 m ρ c (Proc.devRef .tc main_arg1) = (W2 m ρ c (Proc.devRef .tc main_arg1)) := by
    show StableHlo.after hostOps1 (W2 m ρ c) (Proc.devRef .tc main_arg1) = _
    dsimp only [hostOps1]
    after_results_simp
  rw [e, W2_arg1 m ρ c]
theorem W3_arg2 (c : Dev nD) : W3 m ρ c (Proc.devRef .tc main_arg2) = m ((c.tc : Thread nD τ).loc main_arg2) := by
  have e : W3 m ρ c (Proc.devRef .tc main_arg2) = (W2 m ρ c (Proc.devRef .tc main_arg2)) := by
    show StableHlo.after hostOps1 (W2 m ρ c) (Proc.devRef .tc main_arg2) = _
    dsimp only [hostOps1]
    after_results_simp
  rw [e, W2_arg2 m ρ c]
theorem W3_arg7 (c : Dev nD) : W3 m ρ c (Proc.devRef .tc main_arg7) = m ((c.tc : Thread nD τ).loc main_arg7) := by
  have e : W3 m ρ c (Proc.devRef .tc main_arg7) = (W2 m ρ c (Proc.devRef .tc main_arg7)) := by
    show StableHlo.after hostOps1 (W2 m ρ c) (Proc.devRef .tc main_arg7) = _
    dsimp only [hostOps1]
    after_results_simp
  rw [e, W2_arg7 m ρ c]

/-! ## After the second launch -/

theorem W4_emb (c : Dev nD) : (W4 m ρ c (Proc.devRef .tc main_v28_0) : S100000x128.Idx → EReal) = t2 m c :=
  (W4_arr m ρ c 3).trans (R1.out3 (V3 m ρ) c _ _ (V3_x m ρ c) (V3_w m ρ c))

theorem W4_tot (c : Dev nD) : (W4 m ρ c (Proc.devRef .tc main_v28_1) : S100000x128.Idx → EReal) = u2 m c :=
  (W4_arr m ρ c 4).trans (R1.out4 (V3 m ρ) c _ _ _ (V3_x m ρ c) (V3_w m ρ c) (V3_t m ρ c))

theorem W4_arg0 (c : Dev nD) : W4 m ρ c (Proc.devRef .tc main_arg0) = m ((c.tc : Thread nD τ).loc main_arg0) := by
  exact (W4_of_ne m ρ c main_arg0 (by decide)).trans (W3_arg0 m ρ c)
theorem W4_arg1 (c : Dev nD) : W4 m ρ c (Proc.devRef .tc main_arg1) = m ((c.tc : Thread nD τ).loc main_arg1) := by
  exact (W4_of_ne m ρ c main_arg1 (by decide)).trans (W3_arg1 m ρ c)
theorem W4_arg2 (c : Dev nD) : W4 m ρ c (Proc.devRef .tc main_arg2) = m ((c.tc : Thread nD τ).loc main_arg2) := by
  exact (W4_of_ne m ρ c main_arg2 (by decide)).trans (W3_arg2 m ρ c)
theorem W4_arg7 (c : Dev nD) : W4 m ρ c (Proc.devRef .tc main_arg7) = m ((c.tc : Thread nD τ).loc main_arg7) := by
  exact (W4_of_ne m ρ c main_arg7 (by decide)).trans (W3_arg7 m ρ c)

/-! ## Up to the third launch -/

theorem V5_x (c : Dev nD) : (V5 m ρ c main_v41 : S100000x128.Idx → EReal) = propagate dims (m ((c.tc : Thread nD τ).loc main_arg0)) (m ((c.tc : Thread nD τ).loc main_arg1)) (m ((c.tc : Thread nD τ).loc main_arg2)) (t2 m c) := by
  have e : (V5 m ρ c main_v41 : S100000x128.Idx → EReal) = propagate dims (W4 m ρ c (Proc.devRef .tc main_arg0)) (W4 m ρ c (Proc.devRef .tc main_arg1)) (W4 m ρ c (Proc.devRef .tc main_arg2)) (W4 m ρ c (Proc.devRef .tc main_v28_0)) := by
    show StableHlo.after hostOps2 (W4 m ρ c) (Proc.devRef .tc main_v41) = _
    dsimp only [hostOps2]
    after_results_simp
    rfl
  rw [e, W4_arg0 m ρ c, W4_arg1 m ρ c, W4_arg2 m ρ c, W4_emb m ρ c]

theorem V5_w (c : Dev nD) : (V5 m ρ c main_arg7 : S128x128.Idx → EReal) = f2 m c := by
  have e : (V5 m ρ c main_arg7 : S128x128.Idx → EReal) = (W4 m ρ c (Proc.devRef .tc main_arg7)) := by
    show StableHlo.after hostOps2 (W4 m ρ c) (Proc.devRef .tc main_arg7) = _
    dsimp only [hostOps2]
    after_results_simp
  rw [e, W4_arg7 m ρ c]

theorem V5_t (c : Dev nD) : (V5 m ρ c main_v28_1 : S100000x128.Idx → EReal) = u2 m c := by
  have e : (V5 m ρ c main_v28_1 : S100000x128.Idx → EReal) = (W4 m ρ c (Proc.devRef .tc main_v28_1)) := by
    show StableHlo.after hostOps2 (W4 m ρ c) (Proc.devRef .tc main_v28_1) = _
    dsimp only [hostOps2]
    after_results_simp
  rw [e, W4_tot m ρ c]

/-! ## After the third launch, and the cuts -/

theorem W6_tot (c : Dev nD) : (W6 m ρ c (Proc.devRef .tc main_v42_1) : S100000x128.Idx → EReal) = u3 m c :=
  (W6_arr m ρ c 4).trans (R2.out4 (V5 m ρ) c _ _ _ (V5_x m ρ c) (V5_w m ρ c) (V5_t m ρ c))

theorem W7_out0 (c : Dev nD) : W7 m ρ c (Proc.devRef .tc main_v43)
    = extractStridedSlice S60000x128 ![0, 0] (u3 m c) slices_S100000x128_S60000x128_0_0 := by
  have e : W7 m ρ c (Proc.devRef .tc main_v43)
      = extractStridedSlice S60000x128 ![0, 0] (W6 m ρ c (Proc.devRef .tc main_v42_1)) slices_S100000x128_S60000x128_0_0 := by
    show StableHlo.after hostOps3 (W6 m ρ c) (Proc.devRef .tc main_v43) = _
    dsimp only [hostOps3]
    after_results_simp
  rw [e, W6_tot m ρ c]

theorem W7_out1 (c : Dev nD) : W7 m ρ c (Proc.devRef .tc main_v44)
    = extractStridedSlice S40000x128 ![60000, 0] (u3 m c) slices_S100000x128_S40000x128_60000_0 := by
  have e : W7 m ρ c (Proc.devRef .tc main_v44)
      = extractStridedSlice S40000x128 ![60000, 0] (W6 m ρ c (Proc.devRef .tc main_v42_1)) slices_S100000x128_S40000x128_60000_0 := by
    show StableHlo.after hostOps3 (W6 m ρ c) (Proc.devRef .tc main_v44) = _
    dsimp only [hostOps3]
    after_results_simp
  rw [e, W6_tot m ρ c]

end Cert.KernelIdeal.Layers

end
-- ==== Proof.RefValue.lean ====
/-
  The idealized reference's two results as the same function of the eight argument arrays.

  Its operations, read in order: the two row tables stacked; then three times a propagation (the same host gather,
  multiply and scatter-add as in the kernel's program), a dot_general with a filter, a maximum with zero, and the
  Euclidean normalisation of each row by a square, a sum over the last axis, a square root, a maximum with the small
  floor, a broadcast back and a division — which is `Cert.ReluL2Norm.layer` of the propagated table — and an addition
  into the running total; at the end the running total is cut into its first 60000 rows and its other 40000.
-/
import proofs.«167505_j4269197492538_2_alg».proof.Proof.Gen.ReferenceIdeal.Read
import proofs.«167505_j4269197492538_2_alg».proof.Proof.Rounds
import proofs.«167505_j4269197492538_2_alg».proof.Proof.LibReluL2Norm

set_option maxRecDepth 16384

noncomputable section

namespace Cert.ReferenceIdeal.Layers

open Cert.ReferenceIdeal Cert.ReferenceIdeal.Gen Cert.ReferenceIdeal.Read
open Idealize.ShloMosaic Idealize.ShloMosaic.TcCoe Idealize.ShloMosaic.ValueIdx Idealize.SL.Sem
open Cert.Rounds (propagate refined table1 table2 table3 total1 total2 total3)

/-- This program's shape records and side conditions for the propagation. -/
def dims : Cert.Rounds.Dims where
  g := gather_S100000x128_S1600000x1_S1600000x128_1_0_n_n_0_1_1128
  sc := scatter_S100000x128_S1600000x1_S1600000x128_1_0_0_1
  hcol := bcast_S1600000_S1600000x1_0
  hsplatE := bcast_S_S1600000
  hlanes := bcast_S1600000x1_S1600000x128_0_1
  hsplatN := bcast_S_S100000x128

variable (x0 x1 : (⟨S1600000, .i32⟩ : BufTy).Contents (Elt Ideal)) (x2 : (⟨S1600000, .f32⟩ : BufTy).Contents (Elt Ideal))
  (x3 : (⟨S60000x128, .f32⟩ : BufTy).Contents (Elt Ideal)) (x4 : (⟨S40000x128, .f32⟩ : BufTy).Contents (Elt Ideal))
  (x5 x6 x7 : (⟨S128x128, .f32⟩ : BufTy).Contents (Elt Ideal))

/-- Round 1's normalised table is the layer of the propagated stack. -/
theorem h23 : val_main_v23 (F := Ideal) x0 x1 x2 x3 x4 x5 = table1 dims x0 x1 x2 (val_main_v0 (F := Ideal) x3 x4) x5 := by
  have e : val_main_v23 (F := Ideal) x0 x1 x2 x3 x4 x5
      = Cert.ReluL2Norm.hostLayer (M := 100000) (K := 128) (N := 128) 0x00000000#32 0x2B8CBCCC#32 none (propagate dims x0 x1 x2 (val_main_v0 (F := Ideal) x3 x4)) x5
        bcast_S_S100000x128 reducesTo_S100000x128_S100000_d1 h_S_ bcast_S100000_S100000x1_0 bcast_S_S100000x1 bcast_S100000x1_S100000x128_0_1 := rfl
  rw [e]
  exact Cert.ReluL2Norm.hostLayer_eq_layer (M := 100000) (K := 128) (N := 128) 0x00000000#32 0x2B8CBCCC#32 none _ _
        bcast_S_S100000x128 reducesTo_S100000x128_S100000_d1 (by decide) h_S_ bcast_S100000_S100000x1_0 bcast_S_S100000x1 bcast_S100000x1_S100000x128_0_1

/-- Round 2's. -/
theorem h47 : val_main_v47 (F := Ideal) x0 x1 x2 x3 x4 x5 x6 = table2 dims x0 x1 x2 (val_main_v0 (F := Ideal) x3 x4) x5 x6 := by
  have e : val_main_v47 (F := Ideal) x0 x1 x2 x3 x4 x5 x6
      = Cert.ReluL2Norm.hostLayer (M := 100000) (K := 128) (N := 128) 0x00000000#32 0x2B8CBCCC#32 none (propagate dims x0 x1 x2 (val_main_v23 (F := Ideal) x0 x1 x2 x3 x4 x5)) x6
        bcast_S_S100000x128 reducesTo_S100000x128_S100000_d1 h_S_ bcast_S100000_S100000x1_0 bcast_S_S100000x1 bcast_S100000x1_S100000x128_0_1 := rfl
  rw [e, h23]
  exact Cert.ReluL2Norm.hostLayer_eq_layer (M := 100000) (K := 128) (N := 128) 0x00000000#32 0x2B8CBCCC#32 none _ _
        bcast_S_S100000x128 reducesTo_S100000x128_S100000_d1 (by decide) h_S_ bcast_S100000_S100000x1_0 bcast_S_S100000x1 bcast_S100000x1_S100000x128_0_1

/-- Round 3's. -/
theorem h71 : val_main_v71 (F := Ideal) x0 x1 x2 x3 x4 x5 x6 x7 = table3 dims x0 x1 x2 (val_main_v0 (F := Ideal) x3 x4) x5 x6 x7 := by
  have e : val_main_v71 (F := Ideal) x0 x1 x2 x3 x4 x5 x6 x7
      = Cert.ReluL2Norm.hostLayer (M := 100000) (K := 128) (N := 128) 0x00000000#32 0x2B8CBCCC#32 none (propagate dims x0 x1 x2 (val_main_v47 (F := Ideal) x0 x1 x2 x3 x4 x5 x6)) x7
        bcast_S_S100000x128 reducesTo_S100000x128_S100000_d1 h_S_ bcast_S100000_S100000x1_0 bcast_S_S100000x1 bcast_S100000x1_S100000x128_0_1 := rfl
  rw [e, h47]
  exact Cert.ReluL2Norm.hostLayer_eq_layer (M := 100000) (K := 128) (N := 128) 0x00000000#32 0x2B8CBCCC#32 none _ _
        bcast_S_S100000x128 reducesTo_S100000x128_S100000_d1 (by decide) h_S_ bcast_S100000_S100000x1_0 bcast_S_S100000x1 bcast_S100000x1_S100000x128_0_1

/-- The running total is the stack plus the three rounds' tables, added in order. -/
theorem v72_sum (i : S100000x128.Idx) : val_main_v72 (F := Ideal) x0 x1 x2 x3 x4 x5 x6 x7 i
    = FloatOps.addf (F := Ideal) (φ := .f32) (FloatOps.addf (F := Ideal) (φ := .f32)
        (FloatOps.addf (F := Ideal) (φ := .f32) (val_main_v0 (F := Ideal) x3 x4 i) (val_main_v23 (F := Ideal) x0 x1 x2 x3 x4 x5 i))
        (val_main_v47 (F := Ideal) x0 x1 x2 x3 x4 x5 x6 i)) (val_main_v71 (F := Ideal) x0 x1 x2 x3 x4 x5 x6 x7 i) := rfl

/-- The running total after the three rounds IS `total3` of the arguments. -/
theorem total_eq : val_main_v72 (F := Ideal) x0 x1 x2 x3 x4 x5 x6 x7
    = total3 dims x0 x1 x2 (val_main_v0 (F := Ideal) x3 x4) x5 x6 x7 := by
  funext i
  have e23 := congrFun (h23 x0 x1 x2 x3 x4 x5) i
  have e47 := congrFun (h47 x0 x1 x2 x3 x4 x5 x6) i
  have e71 := congrFun (h71 x0 x1 x2 x3 x4 x5 x6 x7) i
  refine (v72_sum x0 x1 x2 x3 x4 x5 x6 x7 i).trans ?_
  refine (congrArg₂ (FloatOps.addf (F := Ideal) (φ := .f32)) (congrArg₂ (FloatOps.addf (F := Ideal) (φ := .f32))
    (congrArg (FloatOps.addf (F := Ideal) (φ := .f32) (val_main_v0 (F := Ideal) x3 x4 i)) e23) e47) e71).trans ?_
  exact (Cert.Rounds.total3_apply dims x0 x1 x2 (val_main_v0 (F := Ideal) x3 x4) x5 x6 x7 i).symm

end Cert.ReferenceIdeal.Layers

end
-- ==== Proof.lean ====
/-
  The proof of `Cert.Claim`: the three frames, `preserves` (no rewrite was made: trivial) and `algebraic`.

  Both idealized programs compute the same thing in the same order. The two argument tables are stacked; three times
  the current table is propagated through the index arrays by the very same host operations, sent through a
  128 × 128 filter, rectified, and each row divided by max(its Euclidean length, a small floor); the running total
  gains each round's table; and the total is cut into its first 60000 rows and its other 40000. The kernel does the
  filter, the rectifier, the normalisation and the addition block by block of 10000 rows on the vector unit; the
  reference does them on the whole array on the host. Because every one of those steps treats a row by itself, a
  block of rows of the result is the result of the block of rows, and the ten blocks tile the array
  (Region0 … Region2); the host's spelling of the same steps is the same function row by row (LibReluL2Norm). So both
  programs end at the two cuts of `Cert.Rounds.total3` of the arguments, and nothing needs the inputs to be finite.
-/
import proofs.«167505_j4269197492538_2_alg».proof.Defs
import proofs.«167505_j4269197492538_2_alg».proof.Proof.Gen.Kernel
import proofs.«167505_j4269197492538_2_alg».proof.Proof.Gen.Kernel.Skeleton
import proofs.«167505_j4269197492538_2_alg».proof.Proof.Gen.Kernel.Launch
import proofs.«167505_j4269197492538_2_alg».proof.Proof.Gen.Kernel.Points
import proofs.«167505_j4269197492538_2_alg».proof.Proof.Gen.Kernel.Frame
import proofs.«167505_j4269197492538_2_alg».proof.Proof.Gen.KernelIdeal
import proofs.«167505_j4269197492538_2_alg».proof.Proof.Gen.KernelIdeal.Skeleton
import proofs.«167505_j4269197492538_2_alg».proof.Proof.Gen.KernelIdeal.Launch
import proofs.«167505_j4269197492538_2_alg».proof.Proof.Gen.KernelIdeal.Points
import proofs.«167505_j4269197492538_2_alg».proof.Proof.Gen.KernelIdeal.Frame
import proofs.«167505_j4269197492538_2_alg».proof.Proof.Gen.ReferenceIdeal
import proofs.«167505_j4269197492538_2_alg».proof.Proof.Gen.Pre_finite_inputs
import proofs.«167505_j4269197492538_2_alg».proof.Proof.Gen.ReferenceIdeal.Run
import proofs.«167505_j4269197492538_2_alg».proof.Proof.Gen.ReferenceIdeal.Read
import proofs.«167505_j4269197492538_2_alg».proof.Proof.KernelRun
import proofs.«167505_j4269197492538_2_alg».proof.Proof.KernelValue
import proofs.«167505_j4269197492538_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The two programs' shape records for the propagation have the same fields. -/
theorem dims_eq : Cert.ReferenceIdeal.Layers.dims = Cert.KernelIdeal.Layers.dims := rfl

/-- Both runs end at the two cuts of the running total after the three rounds, one function of the arguments. -/
theorem algebraic : Cert.algebraic_KernelIdeal_ReferenceIdeal := by
  intro m ρ m' ρ' _ hagree
  refine ⟨fun c => extractStridedSlice Cert.KernelIdeal.S60000x128 ![0, 0]
      (Cert.KernelIdeal.Layers.u3 m c) Cert.KernelIdeal.Facts₀.slices_S100000x128_S60000x128_0_0,
    fun c => extractStridedSlice Cert.KernelIdeal.S40000x128 ![60000, 0]
      (Cert.KernelIdeal.Layers.u3 m c) Cert.KernelIdeal.Facts₀.slices_S100000x128_S40000x128_60000_0,
    ?_, ?_⟩
  · exact (θ_run Cert.KernelIdeal.defs _ _).mono
      (fun r h c => ⟨(h c).1.trans (Cert.KernelIdeal.Layers.W7_out0 m ρ c), (h c).2.1.trans (Cert.KernelIdeal.Layers.W7_out1 m ρ c), (h c).2.2⟩)
      (Cert.KernelIdeal.Layers.run_named (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v73_eq]
      unfold Cert.ReferenceIdeal.Read.val_main_v73
      rw [Cert.ReferenceIdeal.Layers.total_eq, dims_eq, (hagree c).1, (hagree c).2.1, (hagree c).2.2.1, (hagree c).2.2.2.1,
        (hagree c).2.2.2.2.1, (hagree c).2.2.2.2.2.1, (hagree c).2.2.2.2.2.2.1, (hagree c).2.2.2.2.2.2.2]
      rfl
    · rw [Cert.ReferenceIdeal.Read.val_main_v74_eq]
      unfold Cert.ReferenceIdeal.Read.val_main_v74
      rw [Cert.ReferenceIdeal.Layers.total_eq, dims_eq, (hagree c).1, (hagree c).2.1, (hagree c).2.2.1, (hagree c).2.2.2.1,
        (hagree c).2.2.2.2.1, (hagree c).2.2.2.2.2.1, (hagree c).2.2.2.2.2.2.1, (hagree c).2.2.2.2.2.2.2]
      rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
